-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x480000 : Shape := ⟨3, ![32, 1, 480000]⟩
abbrev S32x60 : Shape := ⟨2, ![32, 60]⟩
abbrev S32x300 : Shape := ⟨2, ![32, 300]⟩
abbrev S_ : Shape := ⟨0, ![]⟩

class Facts : Prop where
  bcast_S_S32x1x480000 : S_.BroadcastsInDim S32x1x480000 (![] : Fin 0 → Fin S32x1x480000.rank)
  reducesTo_S32x1x480000_S_d0_1_2 : S32x1x480000.ReducesTo [0, 1, 2] S_
  h_S_ : 0 < S_.numel

variable [Facts]

def fn {F : FTy → Type} [FloatOps F] (main_arg0 : FVec F S32x1x480000 .f32) (main_arg1 : FVec F S32x1x480000 .f32) (main_arg2 : IVec S32x60 32) (main_arg3 : IVec S32x300 32) : IVec S_ 1 :=
  let main_v0 : FVec F S32x1x480000 .f32 := Host.absf main_arg0
  let main_cst : FVec F S_ .f32 := constant S_ .f32 0x7F800000#32
  let main_v1 : FVec F S32x1x480000 .f32 := broadcastInDim S32x1x480000 ![] bcast_S_S32x1x480000 main_cst
  let main_v2 : IVec S32x1x480000 1 := cmpf .olt main_v0 main_v1
  let main_c : IVec S_ 1 := constantI S_ 1 1#1
  let main_v3 : IVec S_ 1 := (fun x v => Host.reduce IntOp.andi x v reducesTo_S32x1x480000_S_d0_1_2 h_S_) main_v2 main_c
  let main_v4 : FVec F S32x1x480000 .f32 := Host.absf main_arg1
  let main_cst_0 : FVec F S_ .f32 := constant S_ .f32 0x7F800000#32
  let main_v5 : FVec F S32x1x480000 .f32 := broadcastInDim S32x1x480000 ![] bcast_S_S32x1x480000 main_cst_0
  let main_v6 : IVec S32x1x480000 1 := cmpf .olt main_v4 main_v5
  let main_c_1 : IVec S_ 1 := constantI S_ 1 1#1
  let main_v7 : IVec S_ 1 := (fun x v => Host.reduce IntOp.andi x v reducesTo_S32x1x480000_S_d0_1_2 h_S_) main_v6 main_c_1
  let main_v8 : IVec S_ 1 := andi main_v3 main_v7
  main_v8
-- ==== Kernel.lean ====
abbrev S32x1x480000 : Shape := ⟨3, ![32, 1, 480000]⟩
abbrev S32x60 : Shape := ⟨2, ![32, 60]⟩
abbrev S32x300 : Shape := ⟨2, ![32, 300]⟩
abbrev S_ : Shape := ⟨0, ![]⟩
abbrev S32 : Shape := ⟨1, ![32]⟩
abbrev S32x1 : Shape := ⟨2, ![32, 1]⟩
abbrev S32x60x1 : Shape := ⟨3, ![32, 60, 1]⟩
abbrev S32x60x2 : Shape := ⟨3, ![32, 60, 2]⟩
abbrev S4800x3200 : Shape := ⟨2, ![4800, 3200]⟩
abbrev S4800x2 : Shape := ⟨2, ![4800, 2]⟩
abbrev S4800x6 : Shape := ⟨2, ![4800, 6]⟩
abbrev S160x3200 : Shape := ⟨2, ![160, 3200]⟩
abbrev S160x6 : Shape := ⟨2, ![160, 6]⟩
abbrev S160x1 : Shape := ⟨2, ![160, 1]⟩

abbrev nBuf : Space → Nat
  | .hbm => 47
  | .vmem => 12
  | .smem => 0
  | _ => 0

abbrev bufTy : (tb : Table) → Fin (tcTables nBuf tb) → BufTy
  | .hbm, ⟨0, _⟩ => ⟨S32x1x480000, .f32⟩
  | .hbm, ⟨1, _⟩ => ⟨S32x1x480000, .f32⟩
  | .hbm, ⟨2, _⟩ => ⟨S32x60, .i32⟩
  | .hbm, ⟨3, _⟩ => ⟨S32x300, .i32⟩
  | .hbm, ⟨4, _⟩ => ⟨S_, .f32⟩
  | .hbm, ⟨5, _⟩ => ⟨S32x300, .f32⟩
  | .hbm, ⟨6, _⟩ => ⟨S32, .i32⟩
  | .hbm, ⟨7, _⟩ => ⟨S32x1, .i32⟩
  | .hbm, ⟨8, _⟩ => ⟨S_, .i32⟩
  | .hbm, ⟨9, _⟩ => ⟨S32x1, .i32⟩
  | .hbm, ⟨10, _⟩ => ⟨S32x1, .i1⟩
  | .hbm, ⟨11, _⟩ => ⟨S_, .i32⟩
  | .hbm, ⟨12, _⟩ => ⟨S32x1, .i32⟩
  | .hbm, ⟨13, _⟩ => ⟨S32x1, .i32⟩
  | .hbm, ⟨14, _⟩ => ⟨S32x1, .i32⟩
  | .hbm, ⟨15, _⟩ => ⟨S_, .i32⟩
  | .hbm, ⟨16, _⟩ => ⟨S32x60, .i32⟩
  | .hbm, ⟨17, _⟩ => ⟨S32x60, .i1⟩
  | .hbm, ⟨18, _⟩ => ⟨S_, .i32⟩
  | .hbm, ⟨19, _⟩ => ⟨S32x60, .i32⟩
  | .hbm, ⟨20, _⟩ => ⟨S32x60, .i32⟩
  | .hbm, ⟨21, _⟩ => ⟨S32x60, .i32⟩
  | .hbm, ⟨22, _⟩ => ⟨S32x60, .i32⟩
  | .hbm, ⟨23, _⟩ => ⟨S32x60x1, .i32⟩
  | .hbm, ⟨24, _⟩ => ⟨S32x60x1, .i32⟩
  | .hbm, ⟨25, _⟩ => ⟨S32x60x2, .i32⟩
  | .hbm, ⟨26, _⟩ => ⟨S_, .f32⟩
  | .hbm, ⟨27, _⟩ => ⟨S32x60, .f32⟩
  | .hbm, ⟨28, _⟩ => ⟨S32x300, .f32⟩
  | .hbm, ⟨29, _⟩ => ⟨S32x300, .f32⟩
  | .hbm, ⟨30, _⟩ => ⟨S32x300, .f32⟩
  | .hbm, ⟨31, _⟩ => ⟨S_, .f32⟩
  | .hbm, ⟨32, _⟩ => ⟨S32x300, .f32⟩
  | .hbm, ⟨33, _⟩ => ⟨S32x300, .f32⟩
  | .hbm, ⟨34, _⟩ => ⟨S32x300, .f32⟩
  | .hbm, ⟨35, _⟩ => ⟨S4800x3200, .f32⟩
  | .hbm, ⟨36, _⟩ => ⟨S4800x3200, .f32⟩
  | .hbm, ⟨37, _⟩ => ⟨S4800x2, .f32⟩
  | .hbm, ⟨38, _⟩ => ⟨S4800x2, .f32⟩
  | .hbm, ⟨39, _⟩ => ⟨S4800x2, .f32⟩
  | .hbm, ⟨40, _⟩ => ⟨S4800x6, .f32⟩
  | .hbm, ⟨41, _⟩ => ⟨S4800x3200, .f32⟩
  | .hbm, ⟨42, _⟩ => ⟨S4800x3200, .f32⟩
  | .hbm, ⟨43, _⟩ => ⟨S4800x3200, .f32⟩
  | .hbm, ⟨44, _⟩ => ⟨S32x1x480000, .f32⟩
  | .hbm, ⟨45, _⟩ => ⟨S32x1x480000, .f32⟩
  | .hbm, ⟨46, _⟩ => ⟨S32x1x480000, .f32⟩
  | .local _ .vmem, ⟨0, _⟩ => ⟨S160x3200, .f32⟩
  | .local _ .vmem, ⟨1, _⟩ => ⟨S160x3200, .f32⟩
  | .local _ .vmem, ⟨2, _⟩ => ⟨S160x3200, .f32⟩
  | .local _ .vmem, ⟨3, _⟩ => ⟨S160x3200, .f32⟩
  | .local _ .vmem, ⟨4, _⟩ => ⟨S160x6, .f32⟩
  | .local _ .vmem, ⟨5, _⟩ => ⟨S160x6, .f32⟩
  | .local _ .vmem, ⟨6, _⟩ => ⟨S160x3200, .f32⟩
  | .local _ .vmem, ⟨7, _⟩ => ⟨S160x3200, .f32⟩
  | .local _ .vmem, ⟨8, _⟩ => ⟨S160x3200, .f32⟩
  | .local _ .vmem, ⟨9, _⟩ => ⟨S160x3200, .f32⟩
  | .local _ .vmem, ⟨10, _⟩ => ⟨S160x3200, .f32⟩
  | .local _ .vmem, ⟨11, _⟩ => ⟨S160x3200, .f32⟩
  | _, _ => ⟨S32x1x480000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30_0 : Ref sig .tc := ⟨.hbm, 41, rfl⟩
abbrev main_v30_1 : Ref sig .tc := ⟨.hbm, 42, rfl⟩
abbrev main_v30_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S32x300 : S_.BroadcastsInDim S32x300 (![] : Fin 0 → Fin S32x300.rank)
  bcast_S32_S32x1_0 : S32.BroadcastsInDim S32x1 (![0] : Fin 1 → Fin S32x1.rank)
  bcast_S_S32x1 : S_.BroadcastsInDim S32x1 (![] : Fin 0 → Fin S32x1.rank)
  bcast_S_S32x60 : S_.BroadcastsInDim S32x60 (![] : Fin 0 → Fin S32x60.rank)
  bcast_S32x1_S32x60_0_1 : S32x1.BroadcastsInDim S32x60 (![0, 1] : Fin 2 → Fin S32x60.rank)
  bcast_S32x60_S32x60x1_0_1 : S32x60.BroadcastsInDim S32x60x1 (![0, 1] : Fin 2 → Fin S32x60x1.rank)
  concatenates_S32x60x1_S32x60x1_S32x60x2_d2 : Shape.Concatenates [S32x60x1, S32x60x1] S32x60x2 2
  shapeCasts_S32x1x480000_S4800x3200 : S32x1x480000.ShapeCasts S4800x3200
  shapeCasts_S32x300_S4800x2 : S32x300.ShapeCasts S4800x2
  concatenates_S4800x2_S4800x2_S4800x2_S4800x6_d1 : Shape.Concatenates [S4800x2, S4800x2, S4800x2] S4800x6 1
  iota_S160x3200_d1_w32 : S160x3200.Iotas .tc 32 [1]
  inb_S160x6_S160x1_0_0 : ∀ a, (![0, 0] : Fin 2 → Nat) a + S160x1.size a ≤ S160x6.size a
  h_S160x1 : 0 < S160x1.numel
  shapeCasts_S160x1_S160x1 : S160x1.ShapeCasts S160x1
  inb_S160x6_S160x1_0_1 : ∀ a, (![0, 1] : Fin 2 → Nat) a + S160x1.size a ≤ S160x6.size a
  inb_S160x6_S160x1_0_2 : ∀ a, (![0, 2] : Fin 2 → Nat) a + S160x1.size a ≤ S160x6.size a
  inb_S160x6_S160x1_0_3 : ∀ a, (![0, 3] : Fin 2 → Nat) a + S160x1.size a ≤ S160x6.size a
  inb_S160x6_S160x1_0_4 : ∀ a, (![0, 4] : Fin 2 → Nat) a + S160x1.size a ≤ S160x6.size a
  inb_S160x6_S160x1_0_5 : ∀ a, (![0, 5] : Fin 2 → Nat) a + S160x1.size a ≤ S160x6.size a
  broadcasts_S160x1_S160x3200 : S160x1.Broadcasts S160x3200
  inb_S160x3200_S160x3200_0_0 : ∀ a, (![0, 0] : Fin 2 → Nat) a + S160x3200.size a ≤ S160x3200.size a
  h_S160x3200 : 0 < S160x3200.numel
  shapeCasts_S160x3200_S160x3200 : S160x3200.ShapeCasts S160x3200
  shapeCasts_S4800x3200_S32x1x480000 : S4800x3200.ShapeCasts S32x1x480000
  scatter_S32x300_S32x60x2_S32x60_n_01_01_2_wf : ScatterDims.WF S32x300 S32x60x2 S32x60 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S160x3200.size a ≤ S4800x3200.size a
  hwx0_0 : ∀ i : grid0.Coords, EltTy.bits .f32 = 32 ∨ (Rect.block (s := S4800x3200) S160x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S160x3200.size a ≤ S4800x3200.size a
  hwx0_1 : ∀ i : grid0.Coords, EltTy.bits .f32 = 32 ∨ (Rect.block (s := S4800x3200) S160x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S160x6.size a ≤ S4800x6.size a
  hwx0_2 : ∀ i : grid0.Coords, EltTy.bits .f32 = 32 ∨ (Rect.block (s := S4800x6) S160x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S160x3200.size a ≤ S4800x3200.size a
  hwx0_3 : ∀ i : grid0.Coords, EltTy.bits .f32 = 32 ∨ (Rect.block (s := S4800x3200) S160x3200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S160x3200.size a ≤ S4800x3200.size a
  hwx0_4 : ∀ i : grid0.Coords, EltTy.bits .f32 = 32 ∨ (Rect.block (s := S4800x3200) S160x3200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S160x3200.size a ≤ S4800x3200.size a
  hwx0_5 : ∀ i : grid0.Coords, EltTy.bits .f32 = 32 ∨ (Rect.block (s := S4800x3200) S160x3200.size (cc0_transform_5 i) (hinb0_5 i)).WholeWords (EltTy.packing .f32)

variable [Facts₀]

def scatter_S32x300_S32x60x2_S32x60_n_01_01_2 : ScatterDims S32x300 S32x60x2 S32x60 where
  updateWindowDims := []
  insertedWindowDims := [0, 1]
  scatterDimsToOperandDims := [0, 1]
  indexVectorDim := 2
  wf := scatter_S32x300_S32x60x2_S32x60_n_01_01_2_wf

abbrev win0_0 : Pipeline.Window sig grid0 :=
  Pipeline.Window.ofSpec (Memref.whole main_v24) S160x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S160x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S160x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30_0) S160x3200.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30_1) S160x3200.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30_2) S160x3200.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1x480000 : Shape := ⟨3, ![32, 1, 480000]⟩
abbrev S32x60 : Shape := ⟨2, ![32, 60]⟩
abbrev S32x300 : Shape := ⟨2, ![32, 300]⟩
abbrev S_ : Shape := ⟨0, ![]⟩
abbrev S32 : Shape := ⟨1, ![32]⟩
abbrev S32x1 : Shape := ⟨2, ![32, 1]⟩
abbrev S32x60x1 : Shape := ⟨3, ![32, 60, 1]⟩
abbrev S32x60x2 : Shape := ⟨3, ![32, 60, 2]⟩
abbrev S32x300x1600 : Shape := ⟨3, ![32, 300, 1600]⟩
abbrev S32x480000 : Shape := ⟨2, ![32, 480000]⟩

abbrev nBuf : Space → Nat
  | .hbm => 57
  | .vmem => 0
  | .smem => 0
  | _ => 0

abbrev bufTy : (tb : Table) → Fin (tcTables nBuf tb) → BufTy
  | .hbm, ⟨0, _⟩ => ⟨S32x1x480000, .f32⟩
  | .hbm, ⟨1, _⟩ => ⟨S32x1x480000, .f32⟩
  | .hbm, ⟨2, _⟩ => ⟨S32x60, .i32⟩
  | .hbm, ⟨3, _⟩ => ⟨S32x300, .i32⟩
  | .hbm, ⟨4, _⟩ => ⟨S_, .f32⟩
  | .hbm, ⟨5, _⟩ => ⟨S32x300, .f32⟩
  | .hbm, ⟨6, _⟩ => ⟨S32, .i32⟩
  | .hbm, ⟨7, _⟩ => ⟨S32x1, .i32⟩
  | .hbm, ⟨8, _⟩ => ⟨S_, .i32⟩
  | .hbm, ⟨9, _⟩ => ⟨S32x1, .i32⟩
  | .hbm, ⟨10, _⟩ => ⟨S32x1, .i1⟩
  | .hbm, ⟨11, _⟩ => ⟨S_, .i32⟩
  | .hbm, ⟨12, _⟩ => ⟨S32x1, .i32⟩
  | .hbm, ⟨13, _⟩ => ⟨S32x1, .i32⟩
  | .hbm, ⟨14, _⟩ => ⟨S32x1, .i32⟩
  | .hbm, ⟨15, _⟩ => ⟨S_, .i32⟩
  | .hbm, ⟨16, _⟩ => ⟨S32x60, .i32⟩
  | .hbm, ⟨17, _⟩ => ⟨S32x60, .i1⟩
  | .hbm, ⟨18, _⟩ => ⟨S_, .i32⟩
  | .hbm, ⟨19, _⟩ => ⟨S32x60, .i32⟩
  | .hbm, ⟨20, _⟩ => ⟨S32x60, .i32⟩
  | .hbm, ⟨21, _⟩ => ⟨S32x60, .i32⟩
  | .hbm, ⟨22, _⟩ => ⟨S32x60, .i32⟩
  | .hbm, ⟨23, _⟩ => ⟨S32x60x1, .i32⟩
  | .hbm, ⟨24, _⟩ => ⟨S32x60x1, .i32⟩
  | .hbm, ⟨25, _⟩ => ⟨S32x60x2, .i32⟩
  | .hbm, ⟨26, _⟩ => ⟨S_, .f32⟩
  | .hbm, ⟨27, _⟩ => ⟨S32x60, .f32⟩
  | .hbm, ⟨28, _⟩ => ⟨S32x300, .f32⟩
  | .hbm, ⟨29, _⟩ => ⟨S32x300, .f32⟩
  | .hbm, ⟨30, _⟩ => ⟨S32x300, .f32⟩
  | .hbm, ⟨31, _⟩ => ⟨S_, .f32⟩
  | .hbm, ⟨32, _⟩ => ⟨S32x300, .f32⟩
  | .hbm, ⟨33, _⟩ => ⟨S32x300, .f32⟩
  | .hbm, ⟨34, _⟩ => ⟨S32x300, .f32⟩
  | .hbm, ⟨35, _⟩ => ⟨S32x300x1600, .f32⟩
  | .hbm, ⟨36, _⟩ => ⟨S32x480000, .f32⟩
  | .hbm, ⟨37, _⟩ => ⟨S32x1x480000, .f32⟩
  | .hbm, ⟨38, _⟩ => ⟨S32x300x1600, .f32⟩
  | .hbm, ⟨39, _⟩ => ⟨S32x480000, .f32⟩
  | .hbm, ⟨40, _⟩ => ⟨S32x1x480000, .f32⟩
  | .hbm, ⟨41, _⟩ => ⟨S32x300x1600, .f32⟩
  | .hbm, ⟨42, _⟩ => ⟨S32x480000, .f32⟩
  | .hbm, ⟨43, _⟩ => ⟨S32x1x480000, .f32⟩
  | .hbm, ⟨44, _⟩ => ⟨S_, .f32⟩
  | .hbm, ⟨45, _⟩ => ⟨S32x1x480000, .f32⟩
  | .hbm, ⟨46, _⟩ => ⟨S32x1x480000, .f32⟩
  | .hbm, ⟨47, _⟩ => ⟨S32x1x480000, .f32⟩
  | .hbm, ⟨48, _⟩ => ⟨S32x1x480000, .f32⟩
  | .hbm, ⟨49, _⟩ => ⟨S32x1x480000, .f32⟩
  | .hbm, ⟨50, _⟩ => ⟨S_, .f32⟩
  | .hbm, ⟨51, _⟩ => ⟨S32x1x480000, .f32⟩
  | .hbm, ⟨52, _⟩ => ⟨S32x1x480000, .f32⟩
  | .hbm, ⟨53, _⟩ => ⟨S32x1x480000, .f32⟩
  | .hbm, ⟨54, _⟩ => ⟨S_, .f32⟩
  | .hbm, ⟨55, _⟩ => ⟨S32x1x480000, .f32⟩
  | .hbm, ⟨56, _⟩ => ⟨S32x1x480000, .f32⟩
  | _, _ => ⟨S32x1x480000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]

class Facts₀ : Prop where
  bcast_S_S32x300 : S_.BroadcastsInDim S32x300 (![] : Fin 0 → Fin S32x300.rank)
  bcast_S32_S32x1_0 : S32.BroadcastsInDim S32x1 (![0] : Fin 1 → Fin S32x1.rank)
  bcast_S_S32x1 : S_.BroadcastsInDim S32x1 (![] : Fin 0 → Fin S32x1.rank)
  bcast_S_S32x60 : S_.BroadcastsInDim S32x60 (![] : Fin 0 → Fin S32x60.rank)
  bcast_S32x1_S32x60_0_1 : S32x1.BroadcastsInDim S32x60 (![0, 1] : Fin 2 → Fin S32x60.rank)
  bcast_S32x60_S32x60x1_0_1 : S32x60.BroadcastsInDim S32x60x1 (![0, 1] : Fin 2 → Fin S32x60x1.rank)
  concatenates_S32x60x1_S32x60x1_S32x60x2_d2 : Shape.Concatenates [S32x60x1, S32x60x1] S32x60x2 2
  bcast_S32x300_S32x300x1600_0_1 : S32x300.BroadcastsInDim S32x300x1600 (![0, 1] : Fin 2 → Fin S32x300x1600.rank)
  shapeCasts_S32x300x1600_S32x480000 : S32x300x1600.ShapeCasts S32x480000
  bcast_S32x480000_S32x1x480000_0_2 : S32x480000.BroadcastsInDim S32x1x480000 (![0, 2] : Fin 2 → Fin S32x1x480000.rank)
  bcast_S_S32x1x480000 : S_.BroadcastsInDim S32x1x480000 (![] : Fin 0 → Fin S32x1x480000.rank)
  scatter_S32x300_S32x60x2_S32x60_n_01_01_2_wf : ScatterDims.WF S32x300 S32x60x2 S32x60 [] [0, 1] [0, 1] 2

variable [Facts₀]

def scatter_S32x300_S32x60x2_S32x60_n_01_01_2 : ScatterDims S32x300 S32x60x2 S32x60 where
  updateWindowDims := []
  insertedWindowDims := [0, 1]
  scatterDimsToOperandDims := [0, 1]
  indexVectorDim := 2
  wf := scatter_S32x300_S32x60x2_S32x60_n_01_01_2_wf

class Facts : Prop extends Facts₀ where

variable [Facts]
-- ==== Proof.KernelFrame.lean ====
/-
  The frame of `Kernel`'s @main: thirty-seven host operations, one region over a grid of thirty points, three
  reshapes. The region's body reads three input blocks (160 rows of the two re-laid audio arrays and of the six-column
  mask table) and stores three whole output blocks; nothing is kept between points. This module states what each
  output block holds after the body as a function of the three input blocks, runs the body once on symbolic
  blocks, and from that run derives that every weakly fair execution of @main terminates without a fault with the
  four argument arrays unchanged and every output array at the blocks written back. It is stated at any float
  instance.
-/
import proofs.«135428_j13486197309531_2_alg».proof.Proof.Gen.Kernel.Launch
import proofs.«135428_j13486197309531_2_alg».proof.Proof.Gen.Kernel.Skeleton
import proofs.«135428_j13486197309531_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the host operations that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the three reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the region touch unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the six arrays the region stages (each writes its own result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.reshape_writes, Finset.mem_singleton] <;> exact StableHlo.devRef_ne_of_ne (by decide)

/-- No host operation before the region writes argument array 0: the region finds it as launched, -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- and none after it does: it ends as launched. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

/-- No host operation before the region writes argument array 1: the region finds it as launched, -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- and none after it does: it ends as launched. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- No host operation before the region writes argument array 2: the region finds it as launched, -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- and none after it does: it ends as launched. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- No host operation before the region writes argument array 3: the region finds it as launched, -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- and none after it does: it ends as launched. -/
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg3 m c

/-! ## The windows' blocks -/

/-- Window `w`'s block at grid point `t`: 160 consecutive rows of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data over the region-entry arrays
    whose body leaves the input blocks in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it stores -/

/-- A whole 160 × 3200 block. -/
abbrev rBlock : Rect S160x3200 := Rect.unit (s := S160x3200) ![0, 0] S160x3200.size inb_S160x3200_S160x3200_0_0
/-- Column `k` of the 160 × 6 mask block. -/
abbrev rCol0 : Rect S160x6 := Rect.unit (s := S160x6) ![0, 0] S160x1.size inb_S160x6_S160x1_0_0
abbrev rCol1 : Rect S160x6 := Rect.unit (s := S160x6) ![0, 1] S160x1.size inb_S160x6_S160x1_0_1
abbrev rCol2 : Rect S160x6 := Rect.unit (s := S160x6) ![0, 2] S160x1.size inb_S160x6_S160x1_0_2
abbrev rCol3 : Rect S160x6 := Rect.unit (s := S160x6) ![0, 3] S160x1.size inb_S160x6_S160x1_0_3
abbrev rCol4 : Rect S160x6 := Rect.unit (s := S160x6) ![0, 4] S160x1.size inb_S160x6_S160x1_0_4
abbrev rCol5 : Rect S160x6 := Rect.unit (s := S160x6) ![0, 5] S160x1.size inb_S160x6_S160x1_0_5

/-- The first output block (the attacked audio) from the blocks of the original audio `xo`, the watermarked audio `xw`
    and the mask table `xm`: one store of the whole block. -/
def attBlock (xo xw : Vec F S160x3200 .f32) (xm : Vec F S160x6 .f32) : Vec F S160x3200 .f32 :=
  View.canon [⟨rBlock, k0_pay7 (View.ld xm rCol0) (View.ld xm rCol1) (View.ld xm rCol2) (View.ld xm rCol3) (View.ld xo rBlock) (View.ld xw rBlock)⟩]
/-- The second output block (the presence mask), from the mask table's block. -/
def gtBlock (xm : Vec F S160x6 .f32) : Vec F S160x3200 .f32 :=
  View.canon [⟨rBlock, k0_pay1 (k0_pay4 (View.ld xm rCol0) (View.ld xm rCol1))⟩]
/-- The third output block (the updated original), from the original audio's block and the mask table's. -/
def uoBlock (xo : Vec F S160x3200 .f32) (xm : Vec F S160x6 .f32) : Vec F S160x3200 .f32 :=
  View.canon [⟨rBlock, k0_pay2 (k0_pay5 (View.ld xm rCol4) (View.ld xm rCol5)) (k0_pay6 (View.ld xo rBlock))⟩]

/-- One store of the whole block covers the block. -/
theorem cover_block (p0 : Vec F S160x3200 .f32) (y : S160x3200.Idx) :
    ∃ pc ∈ ([⟨rBlock, p0⟩] : List (View.Piece (Elt F) S160x3200 .f32)), y ∈ pc.1.set :=
  View.cover_of_tiled [⟨rBlock, p0⟩] S160x3200.size (by rfl) y

/-! ## The body, run once on symbolic blocks -/

set_option maxHeartbeats 1000000 in
/-- On whole staging buffers, the inputs' at contents `xo`, `xw`, `xm` and the outputs' at anything, the body runs to its
    end leaving the inputs as they were and the outputs at `attBlock`, `gtBlock`, `uoBlock` of them. -/
theorem body_run (c : Dev nD) (E : Set ℕ) (i : grid0.Coords)
    (arg1 : Memref sig .tc .vmem S160x3200 .f32) (harg1 : arg1.IsWhole) (arg2 : Memref sig .tc .vmem S160x3200 .f32) (harg2 : arg2.IsWhole)
    (arg3 : Memref sig .tc .vmem S160x6 .f32) (harg3 : arg3.IsWhole) (arg4 : Memref sig .tc .vmem S160x3200 .f32) (harg4 : arg4.IsWhole)
    (arg5 : Memref sig .tc .vmem S160x3200 .f32) (harg5 : arg5.IsWhole) (arg6 : Memref sig .tc .vmem S160x3200 .f32) (harg6 : arg6.IsWhole)
    (xo xw : Vec F S160x3200 .f32) (xm : Vec F S160x6 .f32) (K : PUnit → sProp 𝕄) :
    iprop(owns (c : Thread nD τ) arg1 fullShare xo ∗ owns (c : Thread nD τ) arg2 fullShare xw ∗ owns (c : Thread nD τ) arg3 fullShare xm
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare xo ∗ owns (c : Thread nD τ) arg2 fullShare xw ∗ owns (c : Thread nD τ) arg3 fullShare xm
            ∗ owns (c : Thread nD τ) arg4 fullShare (attBlock xo xw xm) ∗ owns (c : Thread nD τ) arg5 fullShare (gtBlock xm)
            ∗ owns (c : Thread nD τ) arg6 fullShare (uoBlock xo xm)) -∗ K ⟨⟩))
      ⊢ wp frame (wpE (defs₀ (F := F)) Variants.none c none) E (cc0__mask_kernel i arg1 harg1 arg2 harg2 arg3 harg3 arg4 harg4 arg5 harg5 arg6 harg6) K := by
  simp only [cc0__mask_kernel_eq_skeleton]; unfold cc0__mask_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_block _)
  isplitl [H4]
  · iexists _; isplitr
    swap; · iexact H4
    ipureintro
    exact View.read_writes_eq_canon _ _ _ (cover_block _)
  iexists _; isplitr
  swap; · iexact H5
  ipureintro
  exact View.read_writes_eq_canon _ _ _ (cover_block _)

/-! ## The proof data of the region -/

/-- On core `c`: the arrays as the region finds them; after the body at point `t` each input's buffer still at its
    block and each output's at its block function of the input blocks; nothing else is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => attBlock (iblk m c 0 t) (iblk m c 1 t) (iblk m c 2 t)
    | ⟨4, _⟩ => gtBlock (iblk m c 2 t)
    | ⟨5, _⟩ => uoBlock (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = attBlock (iblk m c 0 t) (iblk m c 1 t) (iblk m c 2 t) := by dsimp only [dats]
theorem after_4 (c : Dev nD) (t : Fin cfg0.N) : (dats m 0 c).after 4 t = gtBlock (iblk m c 2 t) := by dsimp only [dats]
theorem after_5 (c : Dev nD) (t : Fin cfg0.N) : (dats m 0 c).after 5 t = uoBlock (iblk m c 0 t) (iblk m c 2 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The body obligation at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `body_run` applies; the rest passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates without a fault; at the end each of the six staged arrays is what
    the write-backs of the proof data leave, and every other unscoped buffer is what the three reshapes leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The four argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_arg0 m (dats m) c),
     ((h c).2 main_arg1 (Pipeline.mem_restRefs_of main_arg1 (by decide) (by decide))).trans (W_arg1 m (dats m) c),
     ((h c).2 main_arg2 (Pipeline.mem_restRefs_of main_arg2 (by decide) (by decide))).trans (W_arg2 m (dats m) c),
     ((h c).2 main_arg3 (Pipeline.mem_restRefs_of main_arg3 (by decide) (by decide))).trans (W_arg3 m (dats m) c)⟩) (run_main m ρ)

end Cert.Kernel.Fr

end
-- ==== Proof.KernelIdealFrame.lean ====
/-
  The frame of `KernelIdeal`'s @main: thirty-seven host operations, one region over a grid of thirty points, three
  reshapes. The region's body reads three input blocks (160 rows of the two re-laid audio arrays and of the six-column
  mask table) and stores three whole output blocks; nothing is kept between points. This module states what each
  output block holds after the body as a function of the three input blocks, runs the body once on symbolic
  blocks, and from that run derives that every weakly fair execution of @main terminates without a fault with the
  four argument arrays unchanged and every output array at the blocks written back. It is stated at any float
  instance.
-/
import proofs.«135428_j13486197309531_2_alg».proof.Proof.Gen.KernelIdeal.Launch
import proofs.«135428_j13486197309531_2_alg».proof.Proof.Gen.KernelIdeal.Skeleton
import proofs.«135428_j13486197309531_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the host operations that precede the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the three reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the region touch unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write none of the six arrays the region stages (each writes its own result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.reshape_writes, Finset.mem_singleton] <;> exact StableHlo.devRef_ne_of_ne (by decide)

/-- No host operation before the region writes argument array 0: the region finds it as launched, -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- and none after it does: it ends as launched. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

/-- No host operation before the region writes argument array 1: the region finds it as launched, -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- and none after it does: it ends as launched. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- No host operation before the region writes argument array 2: the region finds it as launched, -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- and none after it does: it ends as launched. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c

/-- No host operation before the region writes argument array 3: the region finds it as launched, -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- and none after it does: it ends as launched. -/
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg3 m c

/-! ## The windows' blocks -/

/-- Window `w`'s block at grid point `t`: 160 consecutive rows of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data over the region-entry arrays
    whose body leaves the input blocks in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it stores -/

/-- A whole 160 × 3200 block. -/
abbrev rBlock : Rect S160x3200 := Rect.unit (s := S160x3200) ![0, 0] S160x3200.size inb_S160x3200_S160x3200_0_0
/-- Column `k` of the 160 × 6 mask block. -/
abbrev rCol0 : Rect S160x6 := Rect.unit (s := S160x6) ![0, 0] S160x1.size inb_S160x6_S160x1_0_0
abbrev rCol1 : Rect S160x6 := Rect.unit (s := S160x6) ![0, 1] S160x1.size inb_S160x6_S160x1_0_1
abbrev rCol2 : Rect S160x6 := Rect.unit (s := S160x6) ![0, 2] S160x1.size inb_S160x6_S160x1_0_2
abbrev rCol3 : Rect S160x6 := Rect.unit (s := S160x6) ![0, 3] S160x1.size inb_S160x6_S160x1_0_3
abbrev rCol4 : Rect S160x6 := Rect.unit (s := S160x6) ![0, 4] S160x1.size inb_S160x6_S160x1_0_4
abbrev rCol5 : Rect S160x6 := Rect.unit (s := S160x6) ![0, 5] S160x1.size inb_S160x6_S160x1_0_5

/-- The first output block (the attacked audio) from the blocks of the original audio `xo`, the watermarked audio `xw`
    and the mask table `xm`: one store of the whole block. -/
def attBlock (xo xw : Vec F S160x3200 .f32) (xm : Vec F S160x6 .f32) : Vec F S160x3200 .f32 :=
  View.canon [⟨rBlock, k0_pay7 (View.ld xm rCol0) (View.ld xm rCol1) (View.ld xm rCol2) (View.ld xm rCol3) (View.ld xo rBlock) (View.ld xw rBlock)⟩]
/-- The second output block (the presence mask), from the mask table's block. -/
def gtBlock (xm : Vec F S160x6 .f32) : Vec F S160x3200 .f32 :=
  View.canon [⟨rBlock, k0_pay1 (k0_pay4 (View.ld xm rCol0) (View.ld xm rCol1))⟩]
/-- The third output block (the updated original), from the original audio's block and the mask table's. -/
def uoBlock (xo : Vec F S160x3200 .f32) (xm : Vec F S160x6 .f32) : Vec F S160x3200 .f32 :=
  View.canon [⟨rBlock, k0_pay2 (k0_pay5 (View.ld xm rCol4) (View.ld xm rCol5)) (k0_pay6 (View.ld xo rBlock))⟩]

/-- One store of the whole block covers the block. -/
theorem cover_block (p0 : Vec F S160x3200 .f32) (y : S160x3200.Idx) :
    ∃ pc ∈ ([⟨rBlock, p0⟩] : List (View.Piece (Elt F) S160x3200 .f32)), y ∈ pc.1.set :=
  View.cover_of_tiled [⟨rBlock, p0⟩] S160x3200.size (by rfl) y

/-! ## The body, run once on symbolic blocks -/

set_option maxHeartbeats 1000000 in
/-- On whole staging buffers, the inputs' at contents `xo`, `xw`, `xm` and the outputs' at anything, the body runs to its
    end leaving the inputs as they were and the outputs at `attBlock`, `gtBlock`, `uoBlock` of them. -/
theorem body_run (c : Dev nD) (E : Set ℕ) (i : grid0.Coords)
    (arg1 : Memref sig .tc .vmem S160x3200 .f32) (harg1 : arg1.IsWhole) (arg2 : Memref sig .tc .vmem S160x3200 .f32) (harg2 : arg2.IsWhole)
    (arg3 : Memref sig .tc .vmem S160x6 .f32) (harg3 : arg3.IsWhole) (arg4 : Memref sig .tc .vmem S160x3200 .f32) (harg4 : arg4.IsWhole)
    (arg5 : Memref sig .tc .vmem S160x3200 .f32) (harg5 : arg5.IsWhole) (arg6 : Memref sig .tc .vmem S160x3200 .f32) (harg6 : arg6.IsWhole)
    (xo xw : Vec F S160x3200 .f32) (xm : Vec F S160x6 .f32) (K : PUnit → sProp 𝕄) :
    iprop(owns (c : Thread nD τ) arg1 fullShare xo ∗ owns (c : Thread nD τ) arg2 fullShare xw ∗ owns (c : Thread nD τ) arg3 fullShare xm
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare xo ∗ owns (c : Thread nD τ) arg2 fullShare xw ∗ owns (c : Thread nD τ) arg3 fullShare xm
            ∗ owns (c : Thread nD τ) arg4 fullShare (attBlock xo xw xm) ∗ owns (c : Thread nD τ) arg5 fullShare (gtBlock xm)
            ∗ owns (c : Thread nD τ) arg6 fullShare (uoBlock xo xm)) -∗ K ⟨⟩))
      ⊢ wp frame (wpE (defs₀ (F := F)) Variants.none c none) E (cc0__mask_kernel i arg1 harg1 arg2 harg2 arg3 harg3 arg4 harg4 arg5 harg5 arg6 harg6) K := by
  simp only [cc0__mask_kernel_eq_skeleton]; unfold cc0__mask_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover_block _)
  isplitl [H4]
  · iexists _; isplitr
    swap; · iexact H4
    ipureintro
    exact View.read_writes_eq_canon _ _ _ (cover_block _)
  iexists _; isplitr
  swap; · iexact H5
  ipureintro
  exact View.read_writes_eq_canon _ _ _ (cover_block _)

/-! ## The proof data of the region -/

/-- On core `c`: the arrays as the region finds them; after the body at point `t` each input's buffer still at its
    block and each output's at its block function of the input blocks; nothing else is used or owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => attBlock (iblk m c 0 t) (iblk m c 1 t) (iblk m c 2 t)
    | ⟨4, _⟩ => gtBlock (iblk m c 2 t)
    | ⟨5, _⟩ => uoBlock (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = attBlock (iblk m c 0 t) (iblk m c 1 t) (iblk m c 2 t) := by dsimp only [dats]
theorem after_4 (c : Dev nD) (t : Fin cfg0.N) : (dats m 0 c).after 4 t = gtBlock (iblk m c 2 t) := by dsimp only [dats]
theorem after_5 (c : Dev nD) (t : Fin cfg0.N) : (dats m 0 c).after 5 t = uoBlock (iblk m c 0 t) (iblk m c 2 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The body obligation at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so `body_run` applies; the rest passes through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates without a fault; at the end each of the six staged arrays is what
    the write-backs of the proof data leave, and every other unscoped buffer is what the three reshapes leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The four argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_arg0 m (dats m) c),
     ((h c).2 main_arg1 (Pipeline.mem_restRefs_of main_arg1 (by decide) (by decide))).trans (W_arg1 m (dats m) c),
     ((h c).2 main_arg2 (Pipeline.mem_restRefs_of main_arg2 (by decide) (by decide))).trans (W_arg2 m (dats m) c),
     ((h c).2 main_arg3 (Pipeline.mem_restRefs_of main_arg3 (by decide) (by decide))).trans (W_arg3 m (dats m) c)⟩) (run_main m ρ)

end Cert.KernelIdeal.Fr

end
-- ==== Proof.KernelArrays.lean ====
/-
  From blocks to arrays. The region's grid has thirty points; at point `t` every window's block is rows
  160 t … 160 t + 159 of its array (all columns). So element (r, l) of a block at point `t` is element (160 t + r, l)
  of the array, the thirty output blocks tile each output array, and an output array ends holding any function `G` of
  the array index whose restriction to each block is what the body stored there. After the region the three reshapes
  read each 4800 × 3200 output array back as 32 × 1 × 480000: both are the same 15 360 000 numbers in row-major order.
-/
import proofs.«135428_j13486197309531_2_alg».proof.Proof.KernelIdealFrame
import Idealize.ShloMosaic.Lib.Pipeline.Value
import Idealize.ShloMosaic.Lib.ValueIdx
import Idealize.ShloMosaic.Lib.StableHlo.Run

set_option maxRecDepth 16384

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable (m : (ℓ : Loc nD τ sig) → Buf (Elt Ideal) ℓ) (c : Dev nD)

/-! ## Where a block sits -/

/-- The grid has thirty points. -/
theorem point_lt (t : Fin cfg0.N) : t.val < 30 := by
  have h := t.isLt
  have e : cfg0.N = 30 := N_0
  omega

/-- Row `r` of the block at point `t` is row `160 t + r` of the array. -/
def rowAt (t : Fin cfg0.N) (r : Fin 160) : Fin 4800 :=
  ⟨t.val * 160 + r.val, by have := point_lt t; have := r.isLt; omega⟩

/-- The printed index maps, decided over the grid: every window's block index at point `t` is (t, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem emb0 (t : Fin cfg0.N) (r : Fin 160) (l : Fin 3200) :
    (((cfg0.win 0).blk t).view.emb (ix2 r l) : S4800x3200.Idx) = ix2 (rowAt t r) l := by
  obtain ⟨e0, e1, -⟩ := index_facts t
  funext a; apply Fin.ext
  match a with
  | ⟨0, _⟩ => show win0_0.index t (0 : Fin 2) * 160 + 1 * r.val = t.val * 160 + r.val; omega
  | ⟨1, _⟩ => show win0_0.index t (1 : Fin 2) * 3200 + 1 * l.val = l.val; omega
theorem emb1 (t : Fin cfg0.N) (r : Fin 160) (l : Fin 3200) :
    (((cfg0.win 1).blk t).view.emb (ix2 r l) : S4800x3200.Idx) = ix2 (rowAt t r) l := by
  obtain ⟨-, -, e0, e1, -⟩ := index_facts t
  funext a; apply Fin.ext
  match a with
  | ⟨0, _⟩ => show win0_1.index t (0 : Fin 2) * 160 + 1 * r.val = t.val * 160 + r.val; omega
  | ⟨1, _⟩ => show win0_1.index t (1 : Fin 2) * 3200 + 1 * l.val = l.val; omega
theorem emb2 (t : Fin cfg0.N) (r : Fin 160) (k : Fin 6) :
    (((cfg0.win 2).blk t).view.emb (ix2 r k) : S4800x6.Idx) = ix2 (rowAt t r) k := by
  obtain ⟨-, -, -, -, e0, e1, -⟩ := index_facts t
  funext a; apply Fin.ext
  match a with
  | ⟨0, _⟩ => show win0_2.index t (0 : Fin 2) * 160 + 1 * r.val = t.val * 160 + r.val; omega
  | ⟨1, _⟩ => show win0_2.index t (1 : Fin 2) * 6 + 1 * k.val = k.val; omega
theorem emb3 (t : Fin cfg0.N) (r : Fin 160) (l : Fin 3200) :
    (((cfg0.win 3).blk t).view.emb (ix2 r l) : S4800x3200.Idx) = ix2 (rowAt t r) l := by
  obtain ⟨-, -, -, -, -, -, e0, e1, -⟩ := index_facts t
  funext a; apply Fin.ext
  match a with
  | ⟨0, _⟩ => show win0_3.index t (0 : Fin 2) * 160 + 1 * r.val = t.val * 160 + r.val; omega
  | ⟨1, _⟩ => show win0_3.index t (1 : Fin 2) * 3200 + 1 * l.val = l.val; omega
theorem emb4 (t : Fin cfg0.N) (r : Fin 160) (l : Fin 3200) :
    (((cfg0.win 4).blk t).view.emb (ix2 r l) : S4800x3200.Idx) = ix2 (rowAt t r) l := by
  obtain ⟨-, -, -, -, -, -, -, -, e0, e1, -⟩ := index_facts t
  funext a; apply Fin.ext
  match a with
  | ⟨0, _⟩ => show win0_4.index t (0 : Fin 2) * 160 + 1 * r.val = t.val * 160 + r.val; omega
  | ⟨1, _⟩ => show win0_4.index t (1 : Fin 2) * 3200 + 1 * l.val = l.val; omega
theorem emb5 (t : Fin cfg0.N) (r : Fin 160) (l : Fin 3200) :
    (((cfg0.win 5).blk t).view.emb (ix2 r l) : S4800x3200.Idx) = ix2 (rowAt t r) l := by
  obtain ⟨-, -, -, -, -, -, -, -, -, -, e0, e1⟩ := index_facts t
  funext a; apply Fin.ext
  match a with
  | ⟨0, _⟩ => show win0_5.index t (0 : Fin 2) * 160 + 1 * r.val = t.val * 160 + r.val; omega
  | ⟨1, _⟩ => show win0_5.index t (1 : Fin 2) * 3200 + 1 * l.val = l.val; omega

/-! ## The input blocks, read off the arrays the region finds -/

theorem iblk0_apply (t : Fin cfg0.N) (r : Fin 160) (l : Fin 3200) :
    iblk m c 0 t (ix2 r l) = (V m c main_v24 : S4800x3200.Idx → Ideal .f32) (ix2 (rowAt t r) l) := by
  show (V m c main_v24 : S4800x3200.Idx → Ideal .f32) (((cfg0.win 0).blk t).view.emb (ix2 r l)) = _
  rw [emb0]
theorem iblk1_apply (t : Fin cfg0.N) (r : Fin 160) (l : Fin 3200) :
    iblk m c 1 t (ix2 r l) = (V m c main_v25 : S4800x3200.Idx → Ideal .f32) (ix2 (rowAt t r) l) := by
  show (V m c main_v25 : S4800x3200.Idx → Ideal .f32) (((cfg0.win 1).blk t).view.emb (ix2 r l)) = _
  rw [emb1]
theorem iblk2_apply (t : Fin cfg0.N) (r : Fin 160) (k : Fin 6) :
    iblk m c 2 t (ix2 r k) = (V m c main_v29 : S4800x6.Idx → Ideal .f32) (ix2 (rowAt t r) k) := by
  show (V m c main_v29 : S4800x6.Idx → Ideal .f32) (((cfg0.win 2).blk t).view.emb (ix2 r k)) = _
  rw [emb2]

/-! ## What each grid point writes back, and the cover -/

/-- If `G`, a function of the array index, restricted to each block is the first output block the body stores there,
    then point `t` writes back block `t` of `G`. -/
theorem flushed3 (G : S4800x3200.Idx → Ideal .f32)
    (hG : ∀ (t : Fin cfg0.N) (r : Fin 160) (l : Fin 3200),
      attBlock (F := Ideal) (iblk m c 0 t) (iblk m c 1 t) (iblk m c 2 t) (ix2 r l) = G (ix2 (rowAt t r) l)) (t : Fin cfg0.N) :
    (dats m 0 c).flushed 3 t = ((cfg0.win 3).blk t).view.read (Elt Ideal) G := by
  show (cfg0.win 3).cut (grid0.coords t) ((dats m 0 c).after 3 t) = _
  rw [after_3]
  funext j
  obtain ⟨r, l, rfl⟩ : ∃ (r : Fin 160) (l : Fin 3200), j = ix2 r l := ⟨j 0, j 1, eq_ix2 j⟩
  show attBlock (F := Ideal) (iblk m c 0 t) (iblk m c 1 t) (iblk m c 2 t) (ix2 r l) = G (((cfg0.win 3).blk t).view.emb (ix2 r l))
  rw [emb3, hG]
theorem flushed4 (G : S4800x3200.Idx → Ideal .f32)
    (hG : ∀ (t : Fin cfg0.N) (r : Fin 160) (l : Fin 3200),
      gtBlock (F := Ideal) (iblk m c 2 t) (ix2 r l) = G (ix2 (rowAt t r) l)) (t : Fin cfg0.N) :
    (dats m 0 c).flushed 4 t = ((cfg0.win 4).blk t).view.read (Elt Ideal) G := by
  show (cfg0.win 4).cut (grid0.coords t) ((dats m 0 c).after 4 t) = _
  rw [after_4]
  funext j
  obtain ⟨r, l, rfl⟩ : ∃ (r : Fin 160) (l : Fin 3200), j = ix2 r l := ⟨j 0, j 1, eq_ix2 j⟩
  show gtBlock (F := Ideal) (iblk m c 2 t) (ix2 r l) = G (((cfg0.win 4).blk t).view.emb (ix2 r l))
  rw [emb4, hG]
theorem flushed5 (G : S4800x3200.Idx → Ideal .f32)
    (hG : ∀ (t : Fin cfg0.N) (r : Fin 160) (l : Fin 3200),
      uoBlock (F := Ideal) (iblk m c 0 t) (iblk m c 2 t) (ix2 r l) = G (ix2 (rowAt t r) l)) (t : Fin cfg0.N) :
    (dats m 0 c).flushed 5 t = ((cfg0.win 5).blk t).view.read (Elt Ideal) G := by
  show (cfg0.win 5).cut (grid0.coords t) ((dats m 0 c).after 5 t) = _
  rw [after_5]
  funext j
  obtain ⟨r, l, rfl⟩ : ∃ (r : Fin 160) (l : Fin 3200), j = ix2 r l := ⟨j 0, j 1, eq_ix2 j⟩
  show uoBlock (F := Ideal) (iblk m c 0 t) (iblk m c 2 t) (ix2 r l) = G (((cfg0.win 5).blk t).view.emb (ix2 r l))
  rw [emb5, hG]

/-- An index of an output array lies in point `t`'s block iff each coordinate lies in the block's range. -/
theorem mem_blk3 (t : Fin cfg0.N) (i : S4800x3200.Idx) :
    i ∈ ((cfg0.win 3).blk t).view.set ↔ ∀ a : Fin 2, win0_3.index t a * S160x3200.size a ≤ (i a).val ∧ (i a).val < win0_3.index t a * S160x3200.size a + S160x3200.size a := by
  show i ∈ ((View.whole main_v30_0).slice (win0_3.rect t)).set ↔ _
  rw [View.set_slice_whole, Rect.mem_set_unit]
  exact Iff.rfl
theorem mem_blk4 (t : Fin cfg0.N) (i : S4800x3200.Idx) :
    i ∈ ((cfg0.win 4).blk t).view.set ↔ ∀ a : Fin 2, win0_4.index t a * S160x3200.size a ≤ (i a).val ∧ (i a).val < win0_4.index t a * S160x3200.size a + S160x3200.size a := by
  show i ∈ ((View.whole main_v30_1).slice (win0_4.rect t)).set ↔ _
  rw [View.set_slice_whole, Rect.mem_set_unit]
  exact Iff.rfl
theorem mem_blk5 (t : Fin cfg0.N) (i : S4800x3200.Idx) :
    i ∈ ((cfg0.win 5).blk t).view.set ↔ ∀ a : Fin 2, win0_5.index t a * S160x3200.size a ≤ (i a).val ∧ (i a).val < win0_5.index t a * S160x3200.size a + S160x3200.size a := by
  show i ∈ ((View.whole main_v30_2).slice (win0_5.rect t)).set ↔ _
  rw [View.set_slice_whole, Rect.mem_set_unit]
  exact Iff.rfl

/-- The point whose block holds row `R` is `R / 160`. -/
def pointOf (i : S4800x3200.Idx) : Fin cfg0.N :=
  ⟨(i 0).val / 160, by have h : (i 0).val < 4800 := (i 0).isLt; have e : cfg0.N = 30 := N_0; omega⟩

/-- The thirty blocks cover each output array. -/
theorem cover3 (i : S4800x3200.Idx) : ∃ t : Fin cfg0.N, (cfg0.win 3).flush t = true ∧ i ∈ ((cfg0.win 3).blk t).view.set := by
  refine ⟨pointOf i, flush0_3 _, ?_⟩
  rw [mem_blk3]
  obtain ⟨-, -, -, -, -, -, e0, e1, -⟩ := index_facts (pointOf i)
  have h0 : (i 0).val < 4800 := (i 0).isLt
  have h1 : (i 1).val < 3200 := (i 1).isLt
  have hp : (pointOf i).val = (i 0).val / 160 := rfl
  intro a
  match a with
  | ⟨0, _⟩ => show win0_3.index (pointOf i) (0 : Fin 2) * 160 ≤ (i 0).val ∧ (i 0).val < win0_3.index (pointOf i) (0 : Fin 2) * 160 + 160; omega
  | ⟨1, _⟩ => show win0_3.index (pointOf i) (1 : Fin 2) * 3200 ≤ (i 1).val ∧ (i 1).val < win0_3.index (pointOf i) (1 : Fin 2) * 3200 + 3200; omega
theorem cover4 (i : S4800x3200.Idx) : ∃ t : Fin cfg0.N, (cfg0.win 4).flush t = true ∧ i ∈ ((cfg0.win 4).blk t).view.set := by
  refine ⟨pointOf i, flush0_4 _, ?_⟩
  rw [mem_blk4]
  obtain ⟨-, -, -, -, -, -, -, -, e0, e1, -⟩ := index_facts (pointOf i)
  have h0 : (i 0).val < 4800 := (i 0).isLt
  have h1 : (i 1).val < 3200 := (i 1).isLt
  have hp : (pointOf i).val = (i 0).val / 160 := rfl
  intro a
  match a with
  | ⟨0, _⟩ => show win0_4.index (pointOf i) (0 : Fin 2) * 160 ≤ (i 0).val ∧ (i 0).val < win0_4.index (pointOf i) (0 : Fin 2) * 160 + 160; omega
  | ⟨1, _⟩ => show win0_4.index (pointOf i) (1 : Fin 2) * 3200 ≤ (i 1).val ∧ (i 1).val < win0_4.index (pointOf i) (1 : Fin 2) * 3200 + 3200; omega
theorem cover5 (i : S4800x3200.Idx) : ∃ t : Fin cfg0.N, (cfg0.win 5).flush t = true ∧ i ∈ ((cfg0.win 5).blk t).view.set := by
  refine ⟨pointOf i, flush0_5 _, ?_⟩
  rw [mem_blk5]
  obtain ⟨-, -, -, -, -, -, -, -, -, -, e0, e1⟩ := index_facts (pointOf i)
  have h0 : (i 0).val < 4800 := (i 0).isLt
  have h1 : (i 1).val < 3200 := (i 1).isLt
  have hp : (pointOf i).val = (i 0).val / 160 := rfl
  intro a
  match a with
  | ⟨0, _⟩ => show win0_5.index (pointOf i) (0 : Fin 2) * 160 ≤ (i 0).val ∧ (i 0).val < win0_5.index (pointOf i) (0 : Fin 2) * 160 + 160; omega
  | ⟨1, _⟩ => show win0_5.index (pointOf i) (1 : Fin 2) * 3200 ≤ (i 1).val ∧ (i 1).val < win0_5.index (pointOf i) (1 : Fin 2) * 3200 + 3200; omega

/-! ## The output arrays after the region -/

theorem final3 (G : S4800x3200.Idx → Ideal .f32)
    (hG : ∀ (t : Fin cfg0.N) (r : Fin 160) (l : Fin 3200),
      attBlock (F := Ideal) (iblk m c 0 t) (iblk m c 1 t) (iblk m c 2 t) (ix2 r l) = G (ix2 (rowAt t r) l)) :
    (dats m 0 c).arrAt 3 cfg0.N = G :=
  (dats m 0 c).arrAt_eq_of_cover 3 G (fun t _ => flushed3 m c G hG t) cover3
theorem final4 (G : S4800x3200.Idx → Ideal .f32)
    (hG : ∀ (t : Fin cfg0.N) (r : Fin 160) (l : Fin 3200),
      gtBlock (F := Ideal) (iblk m c 2 t) (ix2 r l) = G (ix2 (rowAt t r) l)) :
    (dats m 0 c).arrAt 4 cfg0.N = G :=
  (dats m 0 c).arrAt_eq_of_cover 4 G (fun t _ => flushed4 m c G hG t) cover4
theorem final5 (G : S4800x3200.Idx → Ideal .f32)
    (hG : ∀ (t : Fin cfg0.N) (r : Fin 160) (l : Fin 3200),
      uoBlock (F := Ideal) (iblk m c 0 t) (iblk m c 2 t) (ix2 r l) = G (ix2 (rowAt t r) l)) :
    (dats m 0 c).arrAt 5 cfg0.N = G :=
  (dats m 0 c).arrAt_eq_of_cover 5 G (fun t _ => flushed5 m c G hG t) cover5

/-! ## The reshapes after the region -/

/-- After the region, the first result is the first output array re-read as 32 × 1 × 480000. -/
theorem tail31 :
    (Pipeline.afterTail₀ cfgs (dats m) 0 (V0 m) [hostOps1] c main_v31 : S32x1x480000.Idx → Ideal .f32)
      = shapeCast S32x1x480000 ((dats m 0 c).arrAt 3 cfg0.N : S4800x3200.Idx → Ideal .f32) shapeCasts_S4800x3200_S32x1x480000 := by
  unfold Pipeline.afterTail₀
  show StableHlo.after hostOps1 _ (Proc.devRef .tc main_v31) = _
  after_results
  have e : Pipeline.withArrays (cfgs 0).spec c (V0 m c) (fun w => (dats m 0 c).arrAt w (cfgs 0).N) (Proc.devRef .tc main_v30_0)
      = (dats m 0 c).arrAt 3 cfg0.N := Pipeline.withArrays_arr spec0 launch0.win.arr_inj c _ _ 3
  rw [e]
  rfl
theorem tail32 :
    (Pipeline.afterTail₀ cfgs (dats m) 0 (V0 m) [hostOps1] c main_v32 : S32x1x480000.Idx → Ideal .f32)
      = shapeCast S32x1x480000 ((dats m 0 c).arrAt 4 cfg0.N : S4800x3200.Idx → Ideal .f32) shapeCasts_S4800x3200_S32x1x480000 := by
  unfold Pipeline.afterTail₀
  show StableHlo.after hostOps1 _ (Proc.devRef .tc main_v32) = _
  after_results
  have e : Pipeline.withArrays (cfgs 0).spec c (V0 m c) (fun w => (dats m 0 c).arrAt w (cfgs 0).N) (Proc.devRef .tc main_v30_1)
      = (dats m 0 c).arrAt 4 cfg0.N := Pipeline.withArrays_arr spec0 launch0.win.arr_inj c _ _ 4
  rw [e]
  rfl
theorem tail33 :
    (Pipeline.afterTail₀ cfgs (dats m) 0 (V0 m) [hostOps1] c main_v33 : S32x1x480000.Idx → Ideal .f32)
      = shapeCast S32x1x480000 ((dats m 0 c).arrAt 5 cfg0.N : S4800x3200.Idx → Ideal .f32) shapeCasts_S4800x3200_S32x1x480000 := by
  unfold Pipeline.afterTail₀
  show StableHlo.after hostOps1 _ (Proc.devRef .tc main_v33) = _
  after_results
  have e : Pipeline.withArrays (cfgs 0).spec c (V0 m c) (fun w => (dats m 0 c).arrAt w (cfgs 0).N) (Proc.devRef .tc main_v30_2)
      = (dats m 0 c).arrAt 5 cfg0.N := Pipeline.withArrays_arr spec0 launch0.win.arr_inj c _ _ 5
  rw [e]
  rfl

/-- Sample `s` of audio row `b` is number `480000 b + s` in row-major order: row `(480000 b + s) / 3200`, -/
def rowOf (b : Fin 32) (s : Fin 480000) : Fin 4800 :=
  ⟨(b.val * 480000 + s.val) / 3200, by have := b.isLt; have := s.isLt; omega⟩
/-- lane `(480000 b + s) % 3200` of the re-laid array. -/
def laneOf (b : Fin 32) (s : Fin 480000) : Fin 3200 :=
  ⟨(b.val * 480000 + s.val) % 3200, by omega⟩

/-- A 4800 × 3200 array re-read as 32 × 1 × 480000, at sample `s` of row `b`. -/
theorem relaid_apply (X : S4800x3200.Idx → Ideal .f32) (b : Fin 32) (s : Fin 480000) :
    shapeCast S32x1x480000 X shapeCasts_S4800x3200_S32x1x480000 (ix3 b (0 : Fin 1) s) = X (ix2 (rowOf b s) (laneOf b s)) :=
  shapeCast_apply X shapeCasts_S4800x3200_S32x1x480000 (ix3 b (0 : Fin 1) s) (ix2 (rowOf b s) (laneOf b s))
    (by rewrite [Shape.rowMajor_val_two, Shape.rowMajor_val_three]
        have hb := b.isLt; have hs := s.isLt
        show (b.val * 480000 + s.val) / 3200 * 3200 + (b.val * 480000 + s.val) % 3200 = (b.val * 1 + 0) * 480000 + s.val
        omega)

end Cert.KernelIdeal.Arrays

end
-- ==== Proof.SegmentSpec.lean ====
/-
  What the attack computes, index by index. An audio array has 32 rows of 480000 samples; a row is cut into 300
  segments of 1600 consecutive samples, and three tables of shape 32 × 300 say, per segment, whether it is attacked
  (`A`), attacked and reverted (`R`), attacked and zeroed (`Z`). Sample `t` of row `b` lies in segment `t / 1600`
  of row `b`. The three results are
    attacked  = watermarked · (1 − A) + original · R,
    presence  = 1 − A,
    updated   = original · (1 − Z),
  each table read at the sample's segment. No law of arithmetic is needed to compare two programs that both compute
  these terms: only where each program finds the sample and the segment.
-/
import Idealize.ShloMosaic.PureOps.Ideal
import Idealize.ShloMosaic.Lib.ValueIdx

noncomputable section

namespace Cert.SegmentMask

open Idealize.ShloMosaic Idealize.ShloMosaic.ValueIdx

/-- 32 rows, one channel, 480000 samples. -/
abbrev Audio : Shape := ⟨3, ![32, 1, 480000]⟩
/-- 32 rows of 300 segments. -/
abbrev Segs : Shape := ⟨2, ![32, 300]⟩

/-- The segment a sample lies in. -/
def seg (i : Audio.Idx) : Segs.Idx :=
  ix2 (⟨(i 0).val, (i 0).isLt⟩ : Fin 32)
    (⟨(i 2).val / 1600, by have h : (i 2).val < 480000 := (i 2).isLt; omega⟩ : Fin 300)

/-- The number one, as both programs spell it. -/
def one : Ideal .f32 := FloatOps.ofBits .f32 0x3F800000#32

/-- watermarked · (1 − A) + original · R -/
def attacked (x0 x1 : FVec Ideal Audio .f32) (A R : FVec Ideal Segs .f32) : FVec Ideal Audio .f32 :=
  fun i => x1 i * (one - A (seg i)) + x0 i * R (seg i)

/-- 1 − A -/
def presence (A : FVec Ideal Segs .f32) : FVec Ideal Audio .f32 :=
  fun i => one - A (seg i)

/-- original · (1 − Z) -/
def updated (x0 : FVec Ideal Audio .f32) (Z : FVec Ideal Segs .f32) : FVec Ideal Audio .f32 :=
  fun i => x0 i * (one - Z (seg i))

end Cert.SegmentMask

end
-- ==== Proof.BlockValue.lean ====
import proofs.«135428_j13486197309531_2_alg».proof.Proof.KernelIdealFrame
import proofs.«135428_j13486197309531_2_alg».proof.Proof.SegmentSpec
import Idealize.ShloMosaic.Lib.Pipeline.Value
import Idealize.ShloMosaic.Lib.ValueIdx
import Idealize.ShloMosaic.Lib.ValueLayout

noncomputable section

namespace Cert.KernelIdeal.BlockValue
open Idealize.ShloMosaic Idealize.ShloMosaic.TcCoe Idealize.ShloMosaic.ValueIdx Idealize.SL.Sem
open Cert.KernelIdeal Cert.KernelIdeal.Gen Cert.KernelIdeal.Fr Cert.SegmentMask

/-- Lane `l` of a packed row belongs to the row's first segment when `l < 1600`, to its second otherwise. -/
def pick (l : Fin 3200) (a b : Ideal .f32) : Ideal .f32 := if l.val < 1600 then a else b

/-- The two zero offsets, however they are spelt. -/
private theorem hz : (![0, 0] : Fin 2 → Nat) = fun _ => 0 := by
  funext a; match a with | ⟨0, _⟩ => rfl | ⟨1, _⟩ => rfl

/-- A column `[a, 1]` spread over `b` lanes reads, at `(p, c)`, the column's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane condition at `(r, l)`: the lane number, as a 32-bit word, is signed-less-than 1600 exactly when
    `l < 1600` (a lane number is below 3200, far below 2³¹). -/
private theorem lane_bit (r : Fin 160) (l : Fin 3200) :
    k0_pay3 (ix2 r l) = if l.val < 1600 then 1#1 else 0#1 := by
  have hi : k0_pay3 (ix2 r l) = IntOp.cmpi .slt (BitVec.ofNat 32 l.val) 1600#32 := by
    unfold k0_pay3
    show IntOp.cmpi .slt (iota .tc S160x3200 32 [1] iota_S160x3200_d1_w32 (ix2 r l)) (broadcast S160x3200 1600#32 (ix2 r l)) = _
    rw [iota_single_apply]
    rfl
  have hl : l.val < 3200 := l.isLt
  have hn : (BitVec.ofNat 32 l.val).toNat = l.val := by
    rw [BitVec.toNat_ofNat]; omega
  have ht : (BitVec.ofNat 32 l.val).toInt = (l.val : Int) := by
    rw [BitVec.toInt_eq_toNat_of_lt (by rw [hn]; omega), hn]
  have hc : (1600#32).toInt = 1600 := by decide
  rw [hi]
  split
  · next h => exact IntOp.cmpi_slt.mpr (by rw [ht, hc]; omega)
  · next h =>
    refine eq_zero_of_ne_one fun hb => h ?_
    have := IntOp.cmpi_slt.mp hb
    rw [ht, hc] at this; omega

/-- A select on the lane condition is the choice by lane. -/
private theorem select_lane (a b : FVec Ideal S160x3200 .f32) (r : Fin 160) (l : Fin 3200) :
    select k0_pay3 a b (ix2 r l) = pick l (a (ix2 r l)) (b (ix2 r l)) := by
  rw [select_apply, lane_bit]
  unfold pick
  split
  · exact select_one _ _
  · exact select_zero _ _

/-- Two columns, each spread over the lanes, chosen by lane. -/
private theorem pay4_apply (a b : Vec Ideal S160x1 .f32) (r : Fin 160) (l : Fin 3200) :
    k0_pay4 a b (ix2 r l) = pick l (a (ix2 r (0 : Fin 1))) (b (ix2 r (0 : Fin 1))) := by
  unfold k0_pay4
  simp only [shapeCast_self]
  rw [select_lane, broadcastTo_a1_ab_apply, broadcastTo_a1_ab_apply]

private theorem pay5_apply (a b : Vec Ideal S160x1 .f32) (r : Fin 160) (l : Fin 3200) :
    k0_pay5 a b (ix2 r l) = pick l (a (ix2 r (0 : Fin 1))) (b (ix2 r (0 : Fin 1))) := by
  unfold k0_pay5
  simp only [shapeCast_self]
  rw [select_lane, broadcastTo_a1_ab_apply, broadcastTo_a1_ab_apply]

/-- A block cast to its own shape is the block. -/
private theorem pay6_eq (x : Vec Ideal S160x3200 .f32) : k0_pay6 x = x := by
  unfold k0_pay6
  exact shapeCast_self _ _

/-- One minus the operand, pointwise. -/
private theorem pay1_apply (v : FVec Ideal S160x3200 .f32) (i : S160x3200.Idx) : k0_pay1 v i = one - v i := rfl

/-- The second operand times one minus the first, pointwise. -/
private theorem pay2_apply (v w : FVec Ideal S160x3200 .f32) (i : S160x3200.Idx) : k0_pay2 v w i = w i * (one - v i) := rfl

/-- Row `r` of the one-column block cut from column `K` of the six-column table is the table at `(r, K)`. -/
private theorem ld_col (xm : Vec Ideal S160x6 .f32) (K : Nat) (hK : K < 6)
    (inb : ∀ a, (![0, K] : Fin 2 → Nat) a + S160x1.size a ≤ S160x6.size a) (r : Fin 160) :
    View.ld xm (Rect.unit (s := S160x6) ![0, K] S160x1.size inb) (ix2 r (0 : Fin 1)) = xm (ix2 r (⟨K, hK⟩ : Fin 6)) := by
  show xm _ = xm _
  congr 1
  funext a
  match a with
  | ⟨0, _⟩ => exact Fin.ext (show 0 + 1 * r.val = r.val by omega)
  | ⟨1, _⟩ => exact Fin.ext (show K + 1 * 0 = K by omega)

/-- The attacked block's payload at `(r, l)`: watermarked times one minus the attack choice, plus original times the
    revert choice. -/
private theorem pay7_apply (a b c d : Vec Ideal S160x1 .f32) (o w : Vec Ideal S160x3200 .f32) (r : Fin 160) (l : Fin 3200) :
    k0_pay7 a b c d o w (ix2 r l)
      = w (ix2 r l) * (one - pick l (a (ix2 r (0 : Fin 1))) (b (ix2 r (0 : Fin 1))))
        + o (ix2 r l) * pick l (c (ix2 r (0 : Fin 1))) (d (ix2 r (0 : Fin 1))) := by
  unfold k0_pay7
  simp only [shapeCast_self, pay6_eq]
  rw [addf_apply, mulf_apply, mulf_apply, subf_apply, broadcast_apply, pay4_apply, select_lane,
    broadcastTo_a1_ab_apply, broadcastTo_a1_ab_apply]
  rfl

theorem attBlock_apply (xo xw : Vec Ideal S160x3200 .f32) (xm : Vec Ideal S160x6 .f32) (r : Fin 160) (l : Fin 3200) :
    attBlock (F := Ideal) xo xw xm (ix2 r l)
      = xw (ix2 r l) * (one - pick l (xm (ix2 r (0 : Fin 6))) (xm (ix2 r (1 : Fin 6))))
        + xo (ix2 r l) * pick l (xm (ix2 r (2 : Fin 6))) (xm (ix2 r (3 : Fin 6))) := by
  unfold attBlock
  rw [View.canon_unit_zero hz, pay7_apply, View.ld_unit_zero hz, View.ld_unit_zero hz,
    ld_col xm 0 (by omega), ld_col xm 1 (by omega), ld_col xm 2 (by omega), ld_col xm 3 (by omega)]
  rfl
theorem gtBlock_apply (xm : Vec Ideal S160x6 .f32) (r : Fin 160) (l : Fin 3200) :
    gtBlock (F := Ideal) xm (ix2 r l) = one - pick l (xm (ix2 r (0 : Fin 6))) (xm (ix2 r (1 : Fin 6))) := by
  unfold gtBlock
  rw [View.canon_unit_zero hz, pay1_apply, pay4_apply, ld_col xm 0 (by omega), ld_col xm 1 (by omega)]
  rfl
theorem uoBlock_apply (xo : Vec Ideal S160x3200 .f32) (xm : Vec Ideal S160x6 .f32) (r : Fin 160) (l : Fin 3200) :
    uoBlock (F := Ideal) xo xm (ix2 r l) = xo (ix2 r l) * (one - pick l (xm (ix2 r (4 : Fin 6))) (xm (ix2 r (5 : Fin 6)))) := by
  unfold uoBlock
  rw [View.canon_unit_zero hz, pay2_apply, pay6_eq, pay5_apply, View.ld_unit_zero hz,
    ld_col xm 4 (by omega), ld_col xm 5 (by omega)]
  rfl
end Cert.KernelIdeal.BlockValue
end
-- ==== Proof.EntryArrays.lean ====
/-
  What the three arrays the region stages as inputs hold, index by index, when the region is entered (at the ideal
  instance). The last six host operations before the region are five re-layings and one concatenation: the two
  32 × 1 × 480000 audio arguments are read in row-major order at 4800 × 3200, the three 32 × 300 tables are read in
  row-major order at 4800 × 2 and set side by side as the six columns of the mask table. Row-major position
  3200 R + l of an audio array is sample (3200 R + l) % 480000 of row (3200 R + l) / 480000; row-major position
  2 R + e of a table is entry ((2 R + e) / 300, (2 R + e) % 300). The three tables themselves are left as the
  buffers hold them: the six operations do not write them.
-/
import proofs.«135428_j13486197309531_2_alg».proof.Proof.KernelIdealFrame
import proofs.«135428_j13486197309531_2_alg».proof.Proof.SegmentSpec
import Idealize.ShloMosaic.Lib.Pipeline.Value
import Idealize.ShloMosaic.Lib.ValueIdx
import Idealize.ShloMosaic.Lib.ValueLayout

noncomputable section

namespace Cert.KernelIdeal.Entry
open Idealize.ShloMosaic Idealize.ShloMosaic.TcCoe Idealize.ShloMosaic.ValueIdx Idealize.SL.Sem
open Cert.KernelIdeal Cert.KernelIdeal.Gen Cert.KernelIdeal.Fr Cert.SegmentMask

variable (m : (ℓ : Loc nD τ sig) → Buf (Elt Ideal) ℓ) (c : Dev nD)

/-- Row `R`, lane `l` of a re-laid audio array is sample `(3200 R + l) % 480000` of audio row `(3200 R + l) / 480000`. -/
def sampleOf (R : Fin 4800) (l : Fin 3200) : Audio.Idx :=
  ix3 (⟨(R.val * 3200 + l.val) / 480000, by have := R.isLt; have := l.isLt; omega⟩ : Fin 32) (0 : Fin 1)
    (⟨(R.val * 3200 + l.val) % 480000, by omega⟩ : Fin 480000)
/-- Packed row `R` holds segments `2 R` and `2 R + 1` of the flattened 32 × 300 table. -/
def segOf (R : Fin 4800) (e : Fin 2) : Segs.Idx :=
  ix2 (⟨(R.val * 2 + e.val) / 300, by have := R.isLt; have := e.isLt; omega⟩ : Fin 32)
    (⟨(R.val * 2 + e.val) % 300, by omega⟩ : Fin 300)

/-- The last six host operations before the region: the five re-layings and the concatenation. -/
abbrev tailOps : List (HloOp τ sig (Elt Ideal)) :=
  [ StableHlo.reshape main_arg0 main_v24 rfl shapeCasts_S32x1x480000_S4800x3200,
    StableHlo.reshape main_arg1 main_v25 rfl shapeCasts_S32x1x480000_S4800x3200,
    StableHlo.reshape main_v18 main_v26 rfl shapeCasts_S32x300_S4800x2,
    StableHlo.reshape main_v20 main_v27 rfl shapeCasts_S32x300_S4800x2,
    StableHlo.reshape main_v23 main_v28 rfl shapeCasts_S32x300_S4800x2,
    StableHlo.nary ![main_v26, main_v27, main_v28] main_v29 (fun u => concatenate S4800x6 1 [⟨S4800x2, u 0⟩, ⟨S4800x2, u 1⟩, ⟨S4800x2, u 2⟩] concatenates_S4800x2_S4800x2_S4800x2_S4800x6_d1) ]

/-- The host operations before the region are thirty-one operations followed by those six. -/
theorem hostOps0_eq : (hostOps0 : List (HloOp τ sig (Elt Ideal))) = hostOps0.take 31 ++ tailOps := rfl

/-- The buffers after the first thirty-one host operations. -/
abbrev Vpre : Valuation τ sig (Elt Ideal) := StableHlo.after ((hostOps0 : List (HloOp τ sig (Elt Ideal))).take 31) (fun b => m (c, b))

theorem V_eq (b : Ref sig .tc) : V m c b = StableHlo.after tailOps (Vpre m c) (Proc.devRef .tc b) := by
  show StableHlo.after hostOps0 (fun b => m (c, b)) (Proc.devRef .tc b) = _
  rw [← StableHlo.after_append, ← hostOps0_eq]

/-- None of the six writes an argument array or one of the three tables. -/
theorem tail_arg0 (X : Valuation τ sig (Elt Ideal)) :
    StableHlo.after tailOps X (Proc.devRef .tc main_arg0) = X (Proc.devRef .tc main_arg0) := by
  after_results
theorem tail_arg1 (X : Valuation τ sig (Elt Ideal)) :
    StableHlo.after tailOps X (Proc.devRef .tc main_arg1) = X (Proc.devRef .tc main_arg1) := by
  after_results
theorem tail_v18 (X : Valuation τ sig (Elt Ideal)) :
    StableHlo.after tailOps X (Proc.devRef .tc main_v18) = X (Proc.devRef .tc main_v18) := by
  after_results
theorem tail_v20 (X : Valuation τ sig (Elt Ideal)) :
    StableHlo.after tailOps X (Proc.devRef .tc main_v20) = X (Proc.devRef .tc main_v20) := by
  after_results
theorem tail_v23 (X : Valuation τ sig (Elt Ideal)) :
    StableHlo.after tailOps X (Proc.devRef .tc main_v23) = X (Proc.devRef .tc main_v23) := by
  after_results

/-- The two re-laid audio arrays are the argument arrays read in row-major order at 4800 × 3200. -/
theorem tail_v24 (X : Valuation τ sig (Elt Ideal)) :
    (StableHlo.after tailOps X (Proc.devRef .tc main_v24) : S4800x3200.Idx → Ideal .f32)
      = shapeCast _ (X (Proc.devRef .tc main_arg0) : S32x1x480000.Idx → Ideal .f32) shapeCasts_S32x1x480000_S4800x3200 := by
  after_results
  rfl
theorem tail_v25 (X : Valuation τ sig (Elt Ideal)) :
    (StableHlo.after tailOps X (Proc.devRef .tc main_v25) : S4800x3200.Idx → Ideal .f32)
      = shapeCast _ (X (Proc.devRef .tc main_arg1) : S32x1x480000.Idx → Ideal .f32) shapeCasts_S32x1x480000_S4800x3200 := by
  after_results
  rfl

/-- The mask table is the three 32 × 300 tables, each read in row-major order at 4800 × 2, side by side. -/
theorem tail_v29 (X : Valuation τ sig (Elt Ideal)) :
    (StableHlo.after tailOps X (Proc.devRef .tc main_v29) : S4800x6.Idx → Ideal .f32)
      = concatenate S4800x6 1
          [⟨S4800x2, shapeCast _ (X (Proc.devRef .tc main_v18) : S32x300.Idx → Ideal .f32) shapeCasts_S32x300_S4800x2⟩,
           ⟨S4800x2, shapeCast _ (X (Proc.devRef .tc main_v20) : S32x300.Idx → Ideal .f32) shapeCasts_S32x300_S4800x2⟩,
           ⟨S4800x2, shapeCast _ (X (Proc.devRef .tc main_v23) : S32x300.Idx → Ideal .f32) shapeCasts_S32x300_S4800x2⟩]
          concatenates_S4800x2_S4800x2_S4800x2_S4800x6_d1 := by
  simp only [StableHlo.after_cons, StableHlo.after_nil]
  rw [StableHlo.nary_result]
  dsimp only [Matrix.cons_val]
  repeat (first
    | rw [StableHlo.reshape_result]
    | (rw [StableHlo.reshape_result_ne]; rotate_left; decide))
  rfl

theorem pre_arg0 : Vpre m c (Proc.devRef .tc main_arg0) = m ((c : Thread nD τ).loc main_arg0) := by
  rw [← tail_arg0 (Vpre m c), ← V_eq]; exact V_arg0 m c
theorem pre_arg1 : Vpre m c (Proc.devRef .tc main_arg1) = m ((c : Thread nD τ).loc main_arg1) := by
  rw [← tail_arg1 (Vpre m c), ← V_eq]; exact V_arg1 m c
theorem pre_v18 : Vpre m c (Proc.devRef .tc main_v18) = V m c main_v18 := by
  rw [V_eq, tail_v18]
theorem pre_v20 : Vpre m c (Proc.devRef .tc main_v20) = V m c main_v20 := by
  rw [V_eq, tail_v20]
theorem pre_v23 : Vpre m c (Proc.devRef .tc main_v23) = V m c main_v23 := by
  rw [V_eq, tail_v23]

theorem V_v24_eq : (V m c main_v24 : S4800x3200.Idx → Ideal .f32)
    = shapeCast _ (m ((c : Thread nD τ).loc main_arg0) : S32x1x480000.Idx → Ideal .f32) shapeCasts_S32x1x480000_S4800x3200 := by
  rw [V_eq, tail_v24, pre_arg0]
theorem V_v25_eq : (V m c main_v25 : S4800x3200.Idx → Ideal .f32)
    = shapeCast _ (m ((c : Thread nD τ).loc main_arg1) : S32x1x480000.Idx → Ideal .f32) shapeCasts_S32x1x480000_S4800x3200 := by
  rw [V_eq, tail_v25, pre_arg1]
theorem V_v29_eq : (V m c main_v29 : S4800x6.Idx → Ideal .f32)
    = concatenate S4800x6 1
        [⟨S4800x2, shapeCast _ (V m c main_v18 : S32x300.Idx → Ideal .f32) shapeCasts_S32x300_S4800x2⟩,
         ⟨S4800x2, shapeCast _ (V m c main_v20 : S32x300.Idx → Ideal .f32) shapeCasts_S32x300_S4800x2⟩,
         ⟨S4800x2, shapeCast _ (V m c main_v23 : S32x300.Idx → Ideal .f32) shapeCasts_S32x300_S4800x2⟩]
        concatenates_S4800x2_S4800x2_S4800x2_S4800x6_d1 := by
  rw [V_eq m c main_v29, tail_v29, pre_v18, pre_v20, pre_v23]

/-- A 32 × 1 × 480000 array read in row-major order at 4800 × 3200, at row `R` and lane `l`. -/
theorem shapeCast_audio_apply (x : S32x1x480000.Idx → Ideal .f32) (R : Fin 4800) (l : Fin 3200) :
    shapeCast S4800x3200 x shapeCasts_S32x1x480000_S4800x3200 (ix2 R l) = x (sampleOf R l) :=
  shapeCast_apply x shapeCasts_S32x1x480000_S4800x3200 (ix2 R l) (sampleOf R l) (by
    rw [Shape.rowMajor_val_three, Shape.rowMajor_val_two]
    have hR := R.isLt; have hl := l.isLt
    show ((R.val * 3200 + l.val) / 480000 * 1 + 0) * 480000 + (R.val * 3200 + l.val) % 480000 = R.val * 3200 + l.val
    omega)

/-- A 32 × 300 table read in row-major order at 4800 × 2, at row `R` and column `e`. -/
theorem shapeCast_segs_apply (x : S32x300.Idx → Ideal .f32) (R : Fin 4800) (e : Fin 2) :
    shapeCast S4800x2 x shapeCasts_S32x300_S4800x2 (ix2 R e) = x (segOf R e) :=
  shapeCast_apply x shapeCasts_S32x300_S4800x2 (ix2 R e) (segOf R e) (by
    rw [Shape.rowMajor_val_two, Shape.rowMajor_val_two]
    have hR := R.isLt; have he := e.isLt
    show (R.val * 2 + e.val) / 300 * 300 + (R.val * 2 + e.val) % 300 = R.val * 2 + e.val
    omega)

theorem V_original (R : Fin 4800) (l : Fin 3200) :
    (V m c main_v24 : S4800x3200.Idx → Ideal .f32) (ix2 R l)
      = (m ((c : Thread nD τ).loc main_arg0) : S32x1x480000.Idx → Ideal .f32) (sampleOf R l) := by
  rw [V_v24_eq]; exact shapeCast_audio_apply _ R l
theorem V_watermarked (R : Fin 4800) (l : Fin 3200) :
    (V m c main_v25 : S4800x3200.Idx → Ideal .f32) (ix2 R l)
      = (m ((c : Thread nD τ).loc main_arg1) : S32x1x480000.Idx → Ideal .f32) (sampleOf R l) := by
  rw [V_v25_eq]; exact shapeCast_audio_apply _ R l

/-- Three 4800 × 2 pieces side by side, read at row `R` and column `2 k + e`: piece `k` at row `R`, column `e`. -/
theorem concat3_apply_fst (A B D : S4800x2.Idx → Ideal .f32) (R : Fin 4800) (e : Fin 2) :
    concatenate S4800x6 1 [⟨S4800x2, A⟩, ⟨S4800x2, B⟩, ⟨S4800x2, D⟩] concatenates_S4800x2_S4800x2_S4800x2_S4800x6_d1
      (ix2 R (⟨e.val, by have := e.isLt; omega⟩ : Fin 6)) = A (ix2 R e) :=
  concatenate_apply_piece (t := S4800x6) 1 _ _ _ 0 (by show (0 : Nat) < 3; omega) S4800x2 A rfl rfl 0 rfl (ix2 R e)
    (fun b hb => match b, hb with | ⟨0, _⟩, _ => rfl | ⟨1, _⟩, hb => absurd rfl hb)
    (by show 0 + e.val = e.val; omega)
theorem concat3_apply_snd (A B D : S4800x2.Idx → Ideal .f32) (R : Fin 4800) (e : Fin 2) :
    concatenate S4800x6 1 [⟨S4800x2, A⟩, ⟨S4800x2, B⟩, ⟨S4800x2, D⟩] concatenates_S4800x2_S4800x2_S4800x2_S4800x6_d1
      (ix2 R (⟨2 + e.val, by have := e.isLt; omega⟩ : Fin 6)) = B (ix2 R e) :=
  concatenate_apply_piece (t := S4800x6) 1 _ _ _ 1 (by show (1 : Nat) < 3; omega) S4800x2 B rfl rfl 2 rfl (ix2 R e)
    (fun b hb => match b, hb with | ⟨0, _⟩, _ => rfl | ⟨1, _⟩, hb => absurd rfl hb)
    (by show 2 + e.val = 2 + e.val; rfl)
theorem concat3_apply_thd (A B D : S4800x2.Idx → Ideal .f32) (R : Fin 4800) (e : Fin 2) :
    concatenate S4800x6 1 [⟨S4800x2, A⟩, ⟨S4800x2, B⟩, ⟨S4800x2, D⟩] concatenates_S4800x2_S4800x2_S4800x2_S4800x6_d1
      (ix2 R (⟨4 + e.val, by have := e.isLt; omega⟩ : Fin 6)) = D (ix2 R e) :=
  concatenate_apply_piece (t := S4800x6) 1 _ _ _ 2 (by show (2 : Nat) < 3; omega) S4800x2 D rfl rfl 4 rfl (ix2 R e)
    (fun b hb => match b, hb with | ⟨0, _⟩, _ => rfl | ⟨1, _⟩, hb => absurd rfl hb)
    (by show 4 + e.val = 4 + e.val; rfl)

theorem V_mask_attack (R : Fin 4800) (e : Fin 2) :
    (V m c main_v29 : S4800x6.Idx → Ideal .f32) (ix2 R (⟨e.val, by have := e.isLt; omega⟩ : Fin 6))
      = (V m c main_v18 : S32x300.Idx → Ideal .f32) (segOf R e) := by
  rw [V_v29_eq]
  exact (concat3_apply_fst _ _ _ R e).trans (shapeCast_segs_apply _ R e)
theorem V_mask_revert (R : Fin 4800) (e : Fin 2) :
    (V m c main_v29 : S4800x6.Idx → Ideal .f32) (ix2 R (⟨2 + e.val, by have := e.isLt; omega⟩ : Fin 6))
      = (V m c main_v20 : S32x300.Idx → Ideal .f32) (segOf R e) := by
  rw [V_v29_eq]
  exact (concat3_apply_snd _ _ _ R e).trans (shapeCast_segs_apply _ R e)
theorem V_mask_zero (R : Fin 4800) (e : Fin 2) :
    (V m c main_v29 : S4800x6.Idx → Ideal .f32) (ix2 R (⟨4 + e.val, by have := e.isLt; omega⟩ : Fin 6))
      = (V m c main_v23 : S32x300.Idx → Ideal .f32) (segOf R e) := by
  rw [V_v29_eq]
  exact (concat3_apply_thd _ _ _ R e).trans (shapeCast_segs_apply _ R e)

end Cert.KernelIdeal.Entry
end
-- ==== Proof.KernelValue.lean ====
/-
  The kernel's three results as the specification's functions of its arguments.

  The region re-reads the two audio arrays as 4800 rows of 3200 lanes: row `R`, lane `l` is number `3200 R + l` of the
  audio in row-major order, that is sample `(3200 R + l) % 480000` of audio row `(3200 R + l) / 480000`. A row of 3200
  lanes is two consecutive segments of 1600 samples, segments `2 R` and `2 R + 1` of the flattened 32 × 300 tables, and
  the six columns of the mask table hold, for row `R`, the attack, revert and zero table at these two segments. Lane
  `l` picks the first when `l < 1600` and the second otherwise, which is the segment `(3200 R + l) / 1600` of the sample:
  the same segment the specification reads. So each output block is the specification restricted to the block, the
  thirty blocks tile the output arrays, and the reshapes after the region read them back in row-major order.
-/
import proofs.«135428_j13486197309531_2_alg».proof.Proof.KernelArrays
import proofs.«135428_j13486197309531_2_alg».proof.Proof.BlockValue
import proofs.«135428_j13486197309531_2_alg».proof.Proof.EntryArrays
import proofs.«135428_j13486197309531_2_alg».proof.Proof.SegmentSpec

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Fr Cert.SegmentMask
open Cert.KernelIdeal.Arrays Cert.KernelIdeal.BlockValue Cert.KernelIdeal.Entry

variable (m : (ℓ : Loc nD τ sig) → Buf (Elt Ideal) ℓ) (c : Dev nD) (ρ : Dev nD → PrngReg)

/-! ## Lanes and segments -/

/-- The half of packed row `R` that lane `l` lies in. -/
def halfOf (l : Fin 3200) : Fin 2 := ⟨l.val / 1600, by have := l.isLt; omega⟩

/-- The segment of the sample at row `R`, lane `l` is segment `2 R + l / 1600` of the flattened table. -/
theorem seg_sampleOf (R : Fin 4800) (l : Fin 3200) : seg (sampleOf R l) = segOf R (halfOf l) := by
  have hR := R.isLt; have hl := l.isLt
  unfold seg sampleOf segOf halfOf
  funext a
  match a with
  | ⟨0, _⟩ => exact Fin.ext (by show (R.val * 3200 + l.val) / 480000 = (R.val * 2 + l.val / 1600) / 300; omega)
  | ⟨1, _⟩ => exact Fin.ext (by show (R.val * 3200 + l.val) % 480000 / 1600 = (R.val * 2 + l.val / 1600) % 300; omega)

/-- Choosing by lane between a table's entries at the row's two segments reads the table at the sample's segment. -/
theorem pick_table (T : Segs.Idx → Ideal .f32) (R : Fin 4800) (l : Fin 3200) :
    pick l (T (segOf R (0 : Fin 2))) (T (segOf R (1 : Fin 2))) = T (seg (sampleOf R l)) := by
  rw [seg_sampleOf]
  unfold pick
  have hl := l.isLt
  split
  · next h => exact congrArg (fun e => T (segOf R e)) (Fin.ext (by show (0 : Nat) = l.val / 1600; omega))
  · next h => exact congrArg (fun e => T (segOf R e)) (Fin.ext (by show (1 : Nat) = l.val / 1600; omega))

/-- The sample that row-major position `480000 b + s` of the re-laid array holds is sample `s` of row `b`. -/
theorem sampleOf_rowOf (b : Fin 32) (s : Fin 480000) : sampleOf (rowOf b s) (laneOf b s) = ix3 b (0 : Fin 1) s := by
  have hb := b.isLt; have hs := s.isLt
  unfold sampleOf rowOf laneOf
  funext a
  match a with
  | ⟨0, _⟩ => exact Fin.ext (by show ((b.val * 480000 + s.val) / 3200 * 3200 + (b.val * 480000 + s.val) % 3200) / 480000 = b.val; omega)
  | ⟨1, _⟩ => rfl
  | ⟨2, _⟩ => exact Fin.ext (by show ((b.val * 480000 + s.val) / 3200 * 3200 + (b.val * 480000 + s.val) % 3200) % 480000 = s.val; omega)

/-! ## The mask table's six columns at a row -/

theorem mask0 (R : Fin 4800) : (V m c main_v29 : S4800x6.Idx → Ideal .f32) (ix2 R (0 : Fin 6)) = (V m c main_v18 : S32x300.Idx → Ideal .f32) (segOf R (0 : Fin 2)) :=
  V_mask_attack m c R (0 : Fin 2)
theorem mask1 (R : Fin 4800) : (V m c main_v29 : S4800x6.Idx → Ideal .f32) (ix2 R (1 : Fin 6)) = (V m c main_v18 : S32x300.Idx → Ideal .f32) (segOf R (1 : Fin 2)) :=
  V_mask_attack m c R (1 : Fin 2)
theorem mask2 (R : Fin 4800) : (V m c main_v29 : S4800x6.Idx → Ideal .f32) (ix2 R (2 : Fin 6)) = (V m c main_v20 : S32x300.Idx → Ideal .f32) (segOf R (0 : Fin 2)) :=
  V_mask_revert m c R (0 : Fin 2)
theorem mask3 (R : Fin 4800) : (V m c main_v29 : S4800x6.Idx → Ideal .f32) (ix2 R (3 : Fin 6)) = (V m c main_v20 : S32x300.Idx → Ideal .f32) (segOf R (1 : Fin 2)) :=
  V_mask_revert m c R (1 : Fin 2)
theorem mask4 (R : Fin 4800) : (V m c main_v29 : S4800x6.Idx → Ideal .f32) (ix2 R (4 : Fin 6)) = (V m c main_v23 : S32x300.Idx → Ideal .f32) (segOf R (0 : Fin 2)) :=
  V_mask_zero m c R (0 : Fin 2)
theorem mask5 (R : Fin 4800) : (V m c main_v29 : S4800x6.Idx → Ideal .f32) (ix2 R (5 : Fin 6)) = (V m c main_v23 : S32x300.Idx → Ideal .f32) (segOf R (1 : Fin 2)) :=
  V_mask_zero m c R (1 : Fin 2)

/-! ## The three output arrays, as the specification re-laid -/

/-- The specification's function `g` of an audio index, read at row `R`, lane `l` of the re-laid array. -/
def relaid (g : Audio.Idx → Ideal .f32) : S4800x3200.Idx → Ideal .f32 :=
  fun i => g (sampleOf (⟨(i 0).val, (i 0).isLt⟩ : Fin 4800) (⟨(i 1).val, (i 1).isLt⟩ : Fin 3200))

theorem relaid_ix2 (g : Audio.Idx → Ideal .f32) (R : Fin 4800) (l : Fin 3200) : relaid g (ix2 R l) = g (sampleOf R l) := rfl

/-- The kernel's own tables and arguments, named. -/
abbrev a0 : Audio.Idx → Ideal .f32 := m ((c : Thread nD τ).loc main_arg0)
abbrev a1 : Audio.Idx → Ideal .f32 := m ((c : Thread nD τ).loc main_arg1)
abbrev tA : Segs.Idx → Ideal .f32 := V m c main_v18
abbrev tR : Segs.Idx → Ideal .f32 := V m c main_v20
abbrev tZ : Segs.Idx → Ideal .f32 := V m c main_v23

theorem block3 (t : Fin cfg0.N) (r : Fin 160) (l : Fin 3200) :
    attBlock (F := Ideal) (iblk m c 0 t) (iblk m c 1 t) (iblk m c 2 t) (ix2 r l)
      = relaid (attacked (a0 m c) (a1 m c) (tA m c) (tR m c)) (ix2 (rowAt t r) l) := by
  rw [attBlock_apply, iblk0_apply, iblk1_apply, iblk2_apply, iblk2_apply, iblk2_apply, iblk2_apply,
    mask0, mask1, mask2, mask3, V_original, V_watermarked, relaid_ix2]
  unfold attacked
  rw [← pick_table (tA m c) (rowAt t r) l, ← pick_table (tR m c) (rowAt t r) l]

theorem block4 (t : Fin cfg0.N) (r : Fin 160) (l : Fin 3200) :
    gtBlock (F := Ideal) (iblk m c 2 t) (ix2 r l) = relaid (presence (tA m c)) (ix2 (rowAt t r) l) := by
  rw [gtBlock_apply, iblk2_apply, iblk2_apply, mask0, mask1, relaid_ix2]
  unfold presence
  rw [← pick_table (tA m c) (rowAt t r) l]

theorem block5 (t : Fin cfg0.N) (r : Fin 160) (l : Fin 3200) :
    uoBlock (F := Ideal) (iblk m c 0 t) (iblk m c 2 t) (ix2 r l) = relaid (updated (a0 m c) (tZ m c)) (ix2 (rowAt t r) l) := by
  rw [uoBlock_apply, iblk0_apply, iblk2_apply, iblk2_apply, mask4, mask5, V_original, relaid_ix2]
  unfold updated
  rw [← pick_table (tZ m c) (rowAt t r) l]

/-- A specification function re-laid and read back in row-major order is itself. -/
theorem read_back (g : Audio.Idx → Ideal .f32) :
    shapeCast S32x1x480000 (relaid g) shapeCasts_S4800x3200_S32x1x480000 = g := by
  funext i
  obtain ⟨b, z, s, rfl⟩ : ∃ (b : Fin 32) (z : Fin 1) (s : Fin 480000), i = ix3 b z s := ⟨i 0, i 1, i 2, eq_ix3 i⟩
  obtain rfl : z = 0 := Subsingleton.elim _ _
  rw [relaid_apply, relaid_ix2, sampleOf_rowOf]

theorem result31 : (Pipeline.afterTail₀ cfgs (dats m) 0 (V0 m) [hostOps1] c main_v31 : S32x1x480000.Idx → Ideal .f32)
    = attacked (a0 m c) (a1 m c) (tA m c) (tR m c) := by
  rw [tail31, final3 m c _ (block3 m c), read_back]
theorem result32 : (Pipeline.afterTail₀ cfgs (dats m) 0 (V0 m) [hostOps1] c main_v32 : S32x1x480000.Idx → Ideal .f32)
    = presence (tA m c) := by
  rw [tail32, final4 m c _ (block4 m c), read_back]
theorem result33 : (Pipeline.afterTail₀ cfgs (dats m) 0 (V0 m) [hostOps1] c main_v33 : S32x1x480000.Idx → Ideal .f32)
    = updated (a0 m c) (tZ m c) := by
  rw [tail33, final5 m c _ (block5 m c), read_back]

/-! ## The run, read -/

/-- Every weakly fair execution of the kernel's @main terminates without a fault, with the three results at the
    specification's functions of the two audio arguments and of the three segment tables the program itself prepared,
    and the four arguments unchanged. -/
theorem run : θ_run defs (onTc (τ := τ) (main (F := Ideal))) ⟨m, fun _ => 0, ρ⟩ fun r => ∀ c : Dev nD,
      r.2.mem ((c.tc : Thread nD τ).loc main_v31)
          = attacked (m ((c.tc : Thread nD τ).loc main_arg0)) (m ((c.tc : Thread nD τ).loc main_arg1)) (V m c main_v18) (V m c main_v20)
      ∧ r.2.mem ((c.tc : Thread nD τ).loc main_v32) = presence (V m c main_v18)
      ∧ r.2.mem ((c.tc : Thread nD τ).loc main_v33) = updated (m ((c.tc : Thread nD τ).loc main_arg0)) (V m c main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v31 (Pipeline.mem_restRefs_of main_v31 (by decide) (by decide))).trans (result31 m c),
     ((h c).2 main_v32 (Pipeline.mem_restRefs_of main_v32 (by decide) (by decide))).trans (result32 m c),
     ((h c).2 main_v33 (Pipeline.mem_restRefs_of main_v33 (by decide) (by decide))).trans (result33 m c),
     ((h c).2 main_arg0 (Pipeline.mem_restRefs_of main_arg0 (by decide) (by decide))).trans (W_arg0 m (dats m) c),
     ((h c).2 main_arg1 (Pipeline.mem_restRefs_of main_arg1 (by decide) (by decide))).trans (W_arg1 m (dats m) c),
     ((h c).2 main_arg2 (Pipeline.mem_restRefs_of main_arg2 (by decide) (by decide))).trans (W_arg2 m (dats m) c),
     ((h c).2 main_arg3 (Pipeline.mem_restRefs_of main_arg3 (by decide) (by decide))).trans (W_arg3 m (dats m) c)⟩)
    (run_main m ρ)

end Cert.KernelIdeal.KValue

end
-- ==== Proof.ReferenceSide.lean ====
/-
  The reference program computes the specification.

  The reference expands a 32 × 300 table to a mask over the samples in three layout steps: repeat every entry 1600
  times along a new last axis (32 × 300 × 1600), flatten the last two axes (32 × 480000), insert the channel axis
  (32 × 1 × 480000). Reading the result at sample (b, 0, t) therefore reads the flattened array at (b, t), i.e. at
  linear position b · 480000 + t, whose three coordinates are b, t / 1600 and t % 1600 because t < 480000 = 300 · 1600;
  the repeat forgets the last coordinate. So the mask at sample t of row b is the table at (b, t / 1600), the segment
  of the sample. The arithmetic around the masks is the specification's, term for term.
-/
import proofs.«135428_j13486197309531_2_alg».proof.Proof.SegmentSpec
import proofs.«135428_j13486197309531_2_alg».proof.Proof.Gen.ReferenceIdeal.Read
import Idealize.ShloMosaic.Lib.Pipeline.Value
import Idealize.ShloMosaic.Lib.ValueIdx

noncomputable section

namespace Cert.ReferenceIdeal.RefValue
open Idealize.ShloMosaic Idealize.ShloMosaic.TcCoe Idealize.ShloMosaic.ValueIdx Idealize.SL.Sem
open Cert.ReferenceIdeal Cert.ReferenceIdeal.Gen Cert.SegmentMask

/-- Row b, position t of the flattened array has coordinates (b, t / 1600, t % 1600) in the 32 × 300 × 1600 array;
    its first two are the sample's segment. -/
theorem seg_coords (b t : Nat) (hb : b < 32) (ht : t < 480000) :
    (b * 480000 + t) / 480000 = b ∧ (b * 480000 + t) / 1600 % 300 = t / 1600 := by
  omega

/-- The attack mask at a sample is the attack table at the sample's segment. -/
theorem idx_attack (i : S32x1x480000.Idx) :
    Read.idx_main_v24 (Read.idx_main_v25 (Read.idx_main_v26 i)) = seg i := by
  have h0 : (i 0).val < 32 := (i 0).isLt
  have h2 : (i 2).val < 480000 := (i 2).isLt
  funext a
  apply Fin.ext
  match a with
  | ⟨0, _⟩ =>
    show ((i 0).val * 480000 + (i 2).val) / 480000 = (i 0).val
    exact (seg_coords _ _ h0 h2).1
  | ⟨1, _⟩ =>
    show ((i 0).val * 480000 + (i 2).val) / 1600 % 300 = (i 2).val / 1600
    exact (seg_coords _ _ h0 h2).2

/-- The revert mask at a sample is the revert table at the sample's segment. -/
theorem idx_revert (i : S32x1x480000.Idx) :
    Read.idx_main_v27 (Read.idx_main_v28 (Read.idx_main_v29 i)) = seg i := idx_attack i

/-- The zero mask at a sample is the zero table at the sample's segment. -/
theorem idx_zero (i : S32x1x480000.Idx) :
    Read.idx_main_v30 (Read.idx_main_v31 (Read.idx_main_v32 i)) = seg i := idx_attack i

/-- attacked = watermarked · (1 − A) + original · R, the tables read at the sample's segment. -/
theorem attacked_eq (x0 x1 : (⟨S32x1x480000, .f32⟩ : BufTy).Contents (Elt Ideal)) (x2 : (⟨S32x60, .i32⟩ : BufTy).Contents (Elt Ideal)) (x3 : (⟨S32x300, .i32⟩ : BufTy).Contents (Elt Ideal)) :
    Read.val_main_v37 (F := Ideal) x0 x1 x2 x3 = attacked x0 x1 (Read.val_main_v18 (F := Ideal) x2) (Read.val_main_v20 (F := Ideal) x2 x3) := by
  funext i
  rw [Read.val_main_v37_apply, Read.val_main_v35_apply, Read.val_main_v34_apply, Read.val_main_v33_apply,
    Read.val_main_cst_5_apply, Read.val_main_v26_apply, Read.val_main_v25_apply, Read.val_main_v24_apply,
    Read.val_main_v36_apply, Read.val_main_v29_apply, Read.val_main_v28_apply, Read.val_main_v27_apply,
    idx_attack, idx_revert]
  rfl

/-- presence = 1 − A, the table read at the sample's segment. -/
theorem presence_eq (x2 : (⟨S32x60, .i32⟩ : BufTy).Contents (Elt Ideal)) :
    Read.val_main_v42 (F := Ideal) x2 = presence (Read.val_main_v18 (F := Ideal) x2) := by
  funext i
  rw [Read.val_main_v42_apply, Read.val_main_v41_apply, Read.val_main_cst_7_apply,
    Read.val_main_v26_apply, Read.val_main_v25_apply, Read.val_main_v24_apply, idx_attack]
  rfl

/-- updated = original · (1 − Z), the table read at the sample's segment. -/
theorem updated_eq (x0 : (⟨S32x1x480000, .f32⟩ : BufTy).Contents (Elt Ideal)) (x2 : (⟨S32x60, .i32⟩ : BufTy).Contents (Elt Ideal)) (x3 : (⟨S32x300, .i32⟩ : BufTy).Contents (Elt Ideal)) :
    Read.val_main_v40 (F := Ideal) x0 x2 x3 = updated x0 (Read.val_main_v23 (F := Ideal) x2 x3) := by
  funext i
  rw [Read.val_main_v40_apply, Read.val_main_v39_apply, Read.val_main_v38_apply, Read.val_main_cst_6_apply,
    Read.val_main_v32_apply, Read.val_main_v31_apply, Read.val_main_v30_apply, idx_zero]
  rfl

end Cert.ReferenceIdeal.RefValue
end
-- ==== Proof.SegmentTables.lean ====
/-
  The kernel's program prepares the three segment tables exactly as the reference does.

  Before its region the kernel's program runs the reference's own first operations, in the reference's order and on
  the same two integer arguments (the segment starts and the revert flags): the row numbers and the wrapped segment
  starts are joined into index pairs, ones are scattered into a zero table at those pairs (the attack table), and the
  revert and zero tables are the attack table times the revert flags and times one minus the revert flags. None of the
  later host operations (five reshapes and a concatenation) writes any of the three tables. So when the region is
  entered each table's buffer holds the reference's value of the same table at the kernel's own arguments: both sides
  are the same composition of the same operations, and the equation is by computation of what each buffer holds.
-/
import proofs.«135428_j13486197309531_2_alg».proof.Proof.KernelIdealFrame
import proofs.«135428_j13486197309531_2_alg».proof.Proof.SegmentSpec
import proofs.«135428_j13486197309531_2_alg».proof.Proof.Gen.ReferenceIdeal.Read
import Idealize.ShloMosaic.Lib.Pipeline.Value
import Idealize.ShloMosaic.Lib.StableHlo.Run

noncomputable section

namespace Cert.KernelIdeal.Tables
open Idealize.ShloMosaic Idealize.ShloMosaic.TcCoe Idealize.ShloMosaic.ValueIdx Idealize.SL.Sem
open Cert.KernelIdeal Cert.KernelIdeal.Gen Cert.KernelIdeal.Fr Cert.SegmentMask

variable (m : (ℓ : Loc nD τ sig) → Buf (Elt Ideal) ℓ) (c : Dev nD)

/-- The attack table: ones scattered into zeros at (row, wrapped segment start). -/
theorem attackTable_eq :
    (V m c main_v18 : Segs.Idx → Ideal .f32) = Cert.ReferenceIdeal.Read.val_main_v18 (F := Ideal) (m ((c : Thread nD τ).loc main_arg2)) := by
  show StableHlo.after hostOps0 (fun b => m (c, b)) (Proc.devRef .tc main_v18) = _
  after_results_simp
  rfl

/-- The revert table: the attack table times the revert flags. -/
theorem revertTable_eq :
    (V m c main_v20 : Segs.Idx → Ideal .f32) = Cert.ReferenceIdeal.Read.val_main_v20 (F := Ideal) (m ((c : Thread nD τ).loc main_arg2)) (m ((c : Thread nD τ).loc main_arg3)) := by
  show StableHlo.after hostOps0 (fun b => m (c, b)) (Proc.devRef .tc main_v20) = _
  after_results_simp
  rfl

/-- The zero table: the attack table times one minus the revert flags. -/
theorem zeroTable_eq :
    (V m c main_v23 : Segs.Idx → Ideal .f32) = Cert.ReferenceIdeal.Read.val_main_v23 (F := Ideal) (m ((c : Thread nD τ).loc main_arg2)) (m ((c : Thread nD τ).loc main_arg3)) := by
  show StableHlo.after hostOps0 (fun b => m (c, b)) (Proc.devRef .tc main_v23) = _
  after_results_simp
  rfl

end Cert.KernelIdeal.Tables
end
-- ==== Proof.lean ====
/-
  The certificate of the segment attack: a kernel that masks and replaces 1600-sample segments of two 32 × 1 × 480000
  audio arrays against its plain array reference.

  Both programs first build, with the same host operations on the same two integer arguments, three 32 × 300 tables
  (segment attacked; attacked and reverted; attacked and zeroed) and then compute, sample by sample,
      attacked = watermarked · (1 − A) + original · R,   presence = 1 − A,   updated = original · (1 − Z),
  each table read at the sample's segment (Proof/SegmentSpec.lean). The reference spreads each table over the samples
  by a broadcast and a reshape (Proof/ReferenceSide.lean, over the generated run of the reference). The kernel re-lays
  the audio as 4800 rows of two segments, packs the tables' entries for the two segments of a row into six columns,
  and chooses by lane inside a region of thirty grid points (Proof/KernelIdealFrame.lean: the region runs and leaves
  the arguments alone; Proof/BlockValue.lean: a block at an index; Proof/EntryArrays.lean: the staged arrays at an
  index; Proof/KernelArrays.lean: blocks tile arrays, and the reshapes back; Proof/KernelValue.lean: the results are
  the specification). The two programs' tables are the same terms (Proof/SegmentTables.lean), and the arithmetic
  on each sample is literally the same, so no law of the extended reals and no finiteness of the inputs is used.
  The idealization rewrote nothing, so the word-level kernel's only claim is its frame (Proof/KernelFrame.lean, the same
  argument read at words).
-/
import proofs.«135428_j13486197309531_2_alg».proof.Defs
import proofs.«135428_j13486197309531_2_alg».proof.Proof.Gen.Kernel
import proofs.«135428_j13486197309531_2_alg».proof.Proof.Gen.Kernel.Skeleton
import proofs.«135428_j13486197309531_2_alg».proof.Proof.Gen.Kernel.Launch
import proofs.«135428_j13486197309531_2_alg».proof.Proof.Gen.Kernel.Points
import proofs.«135428_j13486197309531_2_alg».proof.Proof.Gen.KernelIdeal
import proofs.«135428_j13486197309531_2_alg».proof.Proof.Gen.KernelIdeal.Skeleton
import proofs.«135428_j13486197309531_2_alg».proof.Proof.Gen.KernelIdeal.Launch
import proofs.«135428_j13486197309531_2_alg».proof.Proof.Gen.KernelIdeal.Points
import proofs.«135428_j13486197309531_2_alg».proof.Proof.Gen.ReferenceIdeal
import proofs.«135428_j13486197309531_2_alg».proof.Proof.Gen.Pre_finite_inputs
import proofs.«135428_j13486197309531_2_alg».proof.Proof.Gen.ReferenceIdeal.Run
import proofs.«135428_j13486197309531_2_alg».proof.Proof.Gen.ReferenceIdeal.Read
import proofs.«135428_j13486197309531_2_alg».proof.Proof.KernelFrame
import proofs.«135428_j13486197309531_2_alg».proof.Proof.KernelIdealFrame
import proofs.«135428_j13486197309531_2_alg».proof.Proof.KernelValue
import proofs.«135428_j13486197309531_2_alg».proof.Proof.ReferenceSide
import proofs.«135428_j13486197309531_2_alg».proof.Proof.SegmentTables
import Idealize.ShloMosaic.Adequacy
import Idealize.ShloMosaic.Init

noncomputable section

namespace Cert.Proof

open Idealize.ShloMosaic Idealize.SL.Sem Cert.SegmentMask

/-- The word-level kernel runs and leaves its arguments unchanged. -/
theorem frame_kernel : Cert.frame_Kernel := fun m ρ _ => Cert.Kernel.Fr.frame m ρ

/-- So does the kernel read at the extended reals. -/
theorem frame_kernelIdeal : Cert.frame_KernelIdeal := fun m ρ _ => Cert.KernelIdeal.Fr.frame m ρ

/-- The reference is host operations only: its generated run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the four arguments both programs end with the specification's three functions of the
    audio arguments and of the reference's three tables of the integer arguments. -/
theorem algebraic : Cert.algebraic_KernelIdeal_ReferenceIdeal := by
  intro m ρ m' ρ' _ hagree
  refine ⟨fun c => attacked (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (Cert.ReferenceIdeal.Read.val_main_v18 (F := Ideal) (m ((c.tc : Thread Cert.KernelIdeal.nD Cert.KernelIdeal.τ).loc Cert.KernelIdeal.main_arg2)))
        (Cert.ReferenceIdeal.Read.val_main_v20 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
      fun c => presence (Cert.ReferenceIdeal.Read.val_main_v18 (F := Ideal) (m ((c.tc : Thread Cert.KernelIdeal.nD Cert.KernelIdeal.τ).loc Cert.KernelIdeal.main_arg2))),
      fun c => updated (m ((c.tc : Thread Cert.KernelIdeal.nD Cert.KernelIdeal.τ).loc Cert.KernelIdeal.main_arg0))
        (Cert.ReferenceIdeal.Read.val_main_v23 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3))),
      ?_, ?_⟩
  · refine (θ_run Cert.KernelIdeal.defs _ _).mono (fun _ h c => ?_) (Cert.KernelIdeal.KValue.run m ρ)
    obtain ⟨h31, h32, h33, hargs⟩ := h c
    refine ⟨h31.trans ?_, h32.trans ?_, h33.trans ?_, hargs⟩
    · rw [Cert.KernelIdeal.Tables.attackTable_eq m c, Cert.KernelIdeal.Tables.revertTable_eq m c]
    · rw [Cert.KernelIdeal.Tables.attackTable_eq m c]
    · rw [Cert.KernelIdeal.Tables.zeroTable_eq m c]
  · refine (θ_run Cert.ReferenceIdeal.defs _ _).mono (fun _ h c => ?_) (Cert.ReferenceIdeal.Value.run (F := Ideal) m' ρ')
    obtain ⟨h37, h42, h40, hargs⟩ := h c
    obtain ⟨e0, e1, e2, e3⟩ := hagree c
    refine ⟨h37.trans ?_, h42.trans ?_, h40.trans ?_, hargs⟩
    · rw [Cert.ReferenceIdeal.Read.val_main_v37_eq, Cert.ReferenceIdeal.RefValue.attacked_eq, e0, e1, e2, e3]
    · rw [Cert.ReferenceIdeal.Read.val_main_v42_eq, Cert.ReferenceIdeal.RefValue.presence_eq, e2]
    · rw [Cert.ReferenceIdeal.Read.val_main_v40_eq, Cert.ReferenceIdeal.RefValue.updated_eq, e0, e2, e3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
